-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x64 .f32) (main_arg4 : FVec F S64 .f32) (main_arg5 : FVec F S64x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S3300000x64 : Shape := ⟨2, ![3300000, 64]⟩
abbrev S1x64 : Shape := ⟨2, ![1, 64]⟩
abbrev S1x1 : Shape := ⟨2, ![1, 1]⟩

abbrev nBuf : Space → Nat
  | .hbm => 75
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S3300000x1, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .bf16⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000x64, .bf16⟩
  | .hbm, ⟨48, _⟩ => ⟨S3300000x64, .f32⟩
  | .hbm, ⟨49, _⟩ => ⟨S3300000x64, .f32⟩
  | .hbm, ⟨50, _⟩ => ⟨S3300000x64, .f32⟩
  | .hbm, ⟨51, _⟩ => ⟨S_, .f32⟩
  | .hbm, ⟨52, _⟩ => ⟨S100000x64, .f32⟩
  | .hbm, ⟨53, _⟩ => ⟨S3300000x1, .i32⟩
  | .hbm, ⟨54, _⟩ => ⟨S100000x64, .f32⟩
  | .hbm, ⟨55, _⟩ => ⟨S1x64, .f32⟩
  | .hbm, ⟨56, _⟩ => ⟨S100000x1, .f32⟩
  | .hbm, ⟨57, _⟩ => ⟨S_, .i32⟩
  | .hbm, ⟨58, _⟩ => ⟨S3300000, .i32⟩
  | .hbm, ⟨59, _⟩ => ⟨S3300000, .i1⟩
  | .hbm, ⟨60, _⟩ => ⟨S_, .i32⟩
  | .hbm, ⟨61, _⟩ => ⟨S3300000, .i32⟩
  | .hbm, ⟨62, _⟩ => ⟨S3300000, .i32⟩
  | .hbm, ⟨63, _⟩ => ⟨S3300000, .i32⟩
  | .hbm, ⟨64, _⟩ => ⟨S3300000x1, .i32⟩
  | .hbm, ⟨65, _⟩ => ⟨S3300000x1, .f32⟩
  | .hbm, ⟨66, _⟩ => ⟨S3300000x1, .f32⟩
  | .hbm, ⟨67, _⟩ => ⟨S_, .f32⟩
  | .hbm, ⟨68, _⟩ => ⟨S100000x1, .f32⟩
  | .hbm, ⟨69, _⟩ => ⟨S3300000x1, .i32⟩
  | .hbm, ⟨70, _⟩ => ⟨S100000x1, .f32⟩
  | .hbm, ⟨71, _⟩ => ⟨S100000x1, .f32⟩
  | .hbm, ⟨72, _⟩ => ⟨S1x1, .f32⟩
  | .hbm, ⟨73, _⟩ => ⟨S100000x1, .f32⟩
  | .hbm, ⟨74, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x1, .f32⟩
  | .local _ .vmem, ⟨13, _⟩ => ⟨S5000x1, .f32⟩
  | .local _ .vmem, ⟨14, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  shapeCasts_S3300000_S3300000x1 : S3300000.ShapeCasts S3300000x1
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x1_S5000x1_1_0_0_1_n_n_wf : DotDims.WF S5000x64 S64x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S_ : Shape := ⟨0, ![]⟩
abbrev S3300000 : Shape := ⟨1, ![3300000]⟩
abbrev S1x3300000 : Shape := ⟨2, ![1, 3300000]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x64, .f32⟩
  | 4 => ⟨S64, .f32⟩
  | 5 => ⟨S64x1, .f32⟩
  | 6 => ⟨S1, .f32⟩
  | 7 => ⟨S100000, .i32⟩
  | 8 => ⟨S1x100000, .i32⟩
  | 9 => ⟨S1x100000, .i32⟩
  | 10 => ⟨S2x100000, .i32⟩
  | 11 => ⟨S2x3300000, .i32⟩
  | 12 => ⟨S_, .f32⟩
  | 13 => ⟨S100000, .f32⟩
  | 14 => ⟨S3300000, .f32⟩
  | 15 => ⟨S1x3300000, .i32⟩
  | 16 => ⟨S3300000, .i32⟩
  | 17 => ⟨S1x3300000, .i32⟩
  | 18 => ⟨S3300000, .i32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S100000x64, .f32⟩
  | 59 => ⟨S3300000x1, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000x64, .f32⟩
  | 69 => ⟨S3300000x64, .f32⟩
  | 70 => ⟨S3300000x64, .f32⟩
  | 71 => ⟨S_, .f32⟩
  | 72 => ⟨S100000x64, .f32⟩
  | 73 => ⟨S3300000x1, .i32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S1x3300000, .i32⟩
  | 82 => ⟨S3300000, .i32⟩
  | 83 => ⟨S1x3300000, .i32⟩
  | 84 => ⟨S3300000, .i32⟩
  | 85 => ⟨S_, .f32⟩
  | 86 => ⟨S100000, .f32⟩
  | 87 => ⟨S3300000x1, .i32⟩
  | 88 => ⟨S100000, .f32⟩
  | 89 => ⟨S_, .f32⟩
  | 90 => ⟨S100000, .f32⟩
  | 91 => ⟨S100000, .i1⟩
  | 92 => ⟨S_, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .i1⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S3300000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000, .f32⟩
  | 123 => ⟨S3300000, .f32⟩
  | 124 => ⟨S100000x1, .f32⟩
  | 125 => ⟨S3300000x1, .f32⟩
  | 126 => ⟨S_, .i32⟩
  | 127 => ⟨S3300000, .i32⟩
  | _ => ⟨S100000x128, .f32⟩

abbrev hbmTy0_1 (i : Nat) : BufTy := match i % 128 with
  | 0 => ⟨S3300000, .i1⟩
  | 1 => ⟨S_, .i32⟩
  | 2 => ⟨S3300000, .i32⟩
  | 3 => ⟨S3300000, .i32⟩
  | 4 => ⟨S3300000, .i32⟩
  | 5 => ⟨S3300000x1, .i32⟩
  | 6 => ⟨S3300000x1, .f32⟩
  | 7 => ⟨S3300000x1, .f32⟩
  | 8 => ⟨S_, .f32⟩
  | 9 => ⟨S100000x1, .f32⟩
  | 10 => ⟨S3300000x1, .i32⟩
  | 11 => ⟨S100000x1, .f32⟩
  | 12 => ⟨S1x1, .f32⟩
  | 13 => ⟨S100000x1, .f32⟩
  | 14 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_call3_v0 : Ref sig .tc := ⟨.hbm, 93, rfl⟩
abbrev main_call3_v1 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_call4_v0 : Ref sig .tc := ⟨.hbm, 101, rfl⟩
abbrev main_call4_v1 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_c_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_c_19 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_20 : Ref sig .tc := ⟨.hbm, 126, rfl⟩
abbrev main_v87 : Ref sig .tc := ⟨.hbm, 127, rfl⟩
abbrev main_v88 : Ref sig .tc := ⟨.hbm, 128, rfl⟩
abbrev main_c_21 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_22 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x3200000_S2x100000_S2x3300000_d1 : Shape.Concatenates [S2x3200000, S2x100000] S2x3300000 1
  bcast_S_S100000 : S_.BroadcastsInDim S100000 (![] : Fin 0 → Fin S100000.rank)
  concatenates_S3200000_S100000_S3300000_d0 : Shape.Concatenates [S3200000, S100000] S3300000 0
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's run with its RESULT named.

  @main is nine segments: five stretches of host operations, the first dense node transform (a pipelined region over
  twenty blocks of 5000 nodes), one stretch (gather, edge weighting, accumulating scatter), the second dense node
  transform, and the last stretch. Every weakly fair execution from any launch memory terminates without a fault; at
  the end each unscoped buffer holds the fold of the segments over the launch memory. Read at the result buffer this
  is the value the rest of the certificate works on; read at an argument it is the launch contents.
-/
import proofs.«168969_j29274497089560_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the segments' fold
    over the launch memory, and the seven argument arrays end as launched. -/
theorem run_result : θ_run defs (onTc (τ := τ) (main (F := F))) ⟨m, fun _ => 0, ρ⟩ (fun r => ∀ c : Dev nD,
      r.2.mem ((c.tc : Thread nD τ).loc main_v51) = W9 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v51 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Gen

end
-- ==== Proof.LibGatherScatter.lean ====
/-
  Host gathers and accumulating scatters along the leading axis, read at an index.

  A row gather `x[idx]` of a matrix (or of a flat array) at a column of start indices reads, at result row `e`, the
  operand's row `idx[e]` taken as a signed integer and clamped into the operand's range. An accumulating scatter
  `zeros.at[idx].add(upd)` along the leading axis, at the exact (extended-real) instance, holds at row `v` the
  operand's element plus the sum of the update rows `e` whose index `idx[e]`, read signed and NOT clamped, is `v`:
  an update whose index is negative or past the end lands nowhere.
-/
import Idealize.ShloMosaic.Lib.ValueIdx
import Idealize.ShloMosaic.Lib.Pipeline.Value
import Idealize.ShloMosaic.PureOps.Ideal.Laws

noncomputable section

open scoped BigOperators

namespace Cert.LibGatherScatter

open Idealize.ShloMosaic Idealize.ShloMosaic.ValueIdx

/-- A start index read as a signed integer and clamped into `[0, N − 1]`. -/
def clampIdx (N : Nat) (hN : 0 < N) {w : Nat} (b : BitVec w) : Fin N := ⟨min b.toInt.toNat (N - 1), by omega⟩

/-! ## Row gathers -/

/-- The dimension numbers of `x[idx]` for a matrix `x : [N, C]` and a column `idx : [E, 1]` of row numbers. -/
abbrev rowsGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Row `e`, column `c` of the gathered matrix is the operand's row `clamp idx[e]` at column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N E C wf) x idx (ix2 e c) = x (ix2 (clampIdx N hN (idx (ix2 e 0))) c) := by
  unfold Host.gather
  congr 1
  funext a
  refine Fin.ext ?_
  match a with
  | ⟨0, _⟩ =>
    show (rowsGather N E C wf).start (ix2 e c) idx 0 + (rowsGather N E C wf).batchCoord (ix2 e c) 0
      + (rowsGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E C wf).startIndexMap from List.mem_singleton.mpr rfl)]
    have hsi : (rowsGather N E C wf).siIdx (ix2 e c) ⟨List.idxOf (0 : Fin 2) (rowsGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N E C wf).start (ix2 e c) idx 1 + (rowsGather N E C wf).batchCoord (ix2 e c) 1
      + (rowsGather N E C wf).offCoord (ix2 e c) 1 = c.val
    rw [GatherDims.batchCoord_eq_zero _ _ _ List.not_mem_nil]
    have hst : (rowsGather N E C wf).start (ix2 e c) idx 1 = 0 := by
      unfold GatherDims.start
      rw [dif_neg (show (1 : Fin 2) ∉ (rowsGather N E C wf).startIndexMap from fun h => by simp at h)]
    rw [hst]
    simp only [Nat.add_zero, Nat.zero_add]
    rfl

/-- The dimension numbers of `x[idx]` for a flat array `x : [N]` and a column `idx : [E, 1]` of positions. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered array is the operand at `clamp idx[e]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e 0)))) := by
  unfold Host.gather
  congr 1
  funext a
  refine Fin.ext ?_
  match a with
  | ⟨0, _⟩ =>
    show (vecGather N E wf).start (ix1 e) idx 0 + (vecGather N E wf).batchCoord (ix1 e) 0
      + (vecGather N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N E wf).startIndexMap from List.mem_singleton.mpr rfl)]
    have hsi : (vecGather N E wf).siIdx (ix1 e) ⟨List.idxOf (0 : Fin 1) (vecGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## Accumulating scatters, at the exact instance -/

/-- The dimension numbers of `x.at[idx].add(upd)` for `x : [N, C]`, `idx : [E, 1]`, `upd : [E, C]`. -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the leading axis the window of update `(e, c)` starts at its row's index `idx[e]` read signed. -/
theorem rowsScatter_start_zero {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowsScatter N E C wf).start (ix2 e c) idx 0 = (idx (ix2 e 0)).toInt := by
  unfold ScatterDims.start
  rw [dif_pos (show (0 : Fin 2) ∈ (rowsScatter N E C wf).scatterDimsToOperandDims from List.mem_singleton.mpr rfl)]
  have hsi : (rowsScatter N E C wf).siIdx (ix2 e c) ⟨List.idxOf (0 : Fin 2) (rowsScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the index map does not name, every window starts at `0`. -/
theorem rowsScatter_start_one {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowsScatter N E C wf).start (ix2 e c) idx 1 = 0 := by
  unfold ScatterDims.start
  rw [dif_neg (show (1 : Fin 2) ∉ (rowsScatter N E C wf).scatterDimsToOperandDims from fun h => by simp at h)]

/-- The leading axis is an inserted window axis: the window coordinate there is `0`. -/
theorem rowsScatter_window_zero {N E C : Nat} (wf : ScatterDims.WF ⟨2, ![N, C]⟩ ⟨2, ![E, 1]⟩ ⟨2, ![E, C]⟩ [1] [0] [0] 1) (e : Fin E) (c : Fin C) :
    (rowsScatter N E C wf).window (ix2 e c) 0 = 0 := rfl

/-- On the column axis the window coordinate of update `(e, c)` is `c`. -/
theorem rowsScatter_window_one {N E C : Nat} (wf : ScatterDims.WF ⟨2, ![N, C]⟩ ⟨2, ![E, 1]⟩ ⟨2, ![E, C]⟩ [1] [0] [0] 1) (e : Fin E) (c : Fin C) :
    (rowsScatter N E C wf).window (ix2 e c) 1 = c.val := rfl

/-- Update `(e, c')` lands at `(v, c)` exactly when its row's index read signed is `v` and it sits in column `c`. -/
theorem rowsScatter_resultIdx?_eq_some_iff {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (v : Fin N) (c : Fin C) :
    (rowsScatter N E C wf).resultIdx? (ix2 e c') idx = some (ix2 v c)
      ↔ (idx (ix2 e 0)).toInt = (v.val : Int) ∧ c' = c := by
  have h0 : (rowsScatter N E C wf).start (ix2 e c') idx 0 + (rowsScatter N E C wf).window (ix2 e c') 0
      = (idx (ix2 e 0)).toInt := by
    rw [rowsScatter_start_zero, rowsScatter_window_zero]; simp
  have h1 : (rowsScatter N E C wf).start (ix2 e c') idx 1 + (rowsScatter N E C wf).window (ix2 e c') 1
      = (c'.val : Int) := by
    rw [rowsScatter_start_one, rowsScatter_window_one]; simp
  unfold ScatterDims.resultIdx?
  split
  · rename_i h
    rw [Option.some.injEq]
    constructor
    · intro heq
      have e0 : ((rowsScatter N E C wf).start (ix2 e c') idx 0 + (rowsScatter N E C wf).window (ix2 e c') 0).toNat = v.val :=
        congrArg (fun f => (f 0).val) heq
      have e1 : ((rowsScatter N E C wf).start (ix2 e c') idx 1 + (rowsScatter N E C wf).window (ix2 e c') 1).toNat = c.val :=
        congrArg (fun f => (f 1).val) heq
      have p0 := (h 0).1
      rw [h0] at e0 p0
      rw [h1] at e1
      exact ⟨by omega, Fin.ext (by omega)⟩
    · rintro ⟨hv, rfl⟩
      funext a
      refine Fin.ext ?_
      match a with
      | ⟨0, _⟩ =>
        show ((rowsScatter N E C wf).start (ix2 e c') idx 0 + (rowsScatter N E C wf).window (ix2 e c') 0).toNat = v.val
        rw [h0, hv]; simp
      | ⟨1, _⟩ =>
        show ((rowsScatter N E C wf).start (ix2 e c') idx 1 + (rowsScatter N E C wf).window (ix2 e c') 1).toNat = c'.val
        rw [h1]; simp
  · rename_i h
    constructor
    · intro heq; exact absurd heq (by simp)
    · rintro ⟨hv, rfl⟩
      exfalso
      apply h
      intro a
      match a with
      | ⟨0, _⟩ =>
        show 0 ≤ (rowsScatter N E C wf).start (ix2 e c') idx 0 + (rowsScatter N E C wf).window (ix2 e c') 0
          ∧ (rowsScatter N E C wf).start (ix2 e c') idx 0 + (rowsScatter N E C wf).window (ix2 e c') 0 < (N : Int)
        rw [h0, hv]
        have := v.isLt
        omega
      | ⟨1, _⟩ =>
        show 0 ≤ (rowsScatter N E C wf).start (ix2 e c') idx 1 + (rowsScatter N E C wf).window (ix2 e c') 1
          ∧ (rowsScatter N E C wf).start (ix2 e c') idx 1 + (rowsScatter N E C wf).window (ix2 e c') 1 < (C : Int)
        rw [h1]
        have := c'.isLt
        omega

/-- Row `v`, column `c` after the scatter: the operand's element plus the sum, over the update rows `e` whose index
    read signed is `v`, of the update at `(e, c)`. -/
theorem scatterAdd_rows_apply {φ : FTy} {N E C w : Nat}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (v : Fin N) (c : Fin C) :
    Host.scatterAdd (F := Ideal) (rowsScatter N E C wf) x idx upd (ix2 v c)
      = x (ix2 v c) + ∑ e ∈ Finset.univ.filter (fun e : Fin E => (idx (ix2 e 0)).toInt = (v.val : Int)), upd (ix2 e c) := by
  show x (ix2 v c) + ∑ j ∈ Finset.univ.filter (fun j => (rowsScatter N E C wf).resultIdx? j idx = some (ix2 v c)), upd j = _
  congr 1
  symm
  refine Finset.sum_bij (fun e _ => ix2 e c) ?_ ?_ ?_ ?_
  · intro e he
    rw [Finset.mem_filter] at he ⊢
    exact ⟨Finset.mem_univ _, (rowsScatter_resultIdx?_eq_some_iff wf idx e c v c).2 ⟨he.2, rfl⟩⟩
  · intro a _ b _ hab
    exact congrFun hab 0
  · intro j hj
    obtain ⟨e, c', rfl⟩ : ∃ (e : Fin E) (c' : Fin C), j = ix2 e c' := ⟨j 0, j 1, eq_ix2 j⟩
    rw [Finset.mem_filter] at hj
    obtain ⟨hv, hc⟩ := (rowsScatter_resultIdx?_eq_some_iff wf idx e c' v c).1 hj.2
    exact ⟨e, Finset.mem_filter.2 ⟨Finset.mem_univ _, hv⟩, by rw [hc]⟩
  · intro e _
    rfl

/-- The dimension numbers of `x.at[idx].add(upd)` for `x : [N]`, `idx : [E, 1]`, `upd : [E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at its index `idx[e]` read signed. -/
theorem vecScatter_start_zero {N E w : Nat} (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The only operand axis is an inserted window axis: the window coordinate there is `0`. -/
theorem vecScatter_window_zero {N E : Nat} (wf : ScatterDims.WF ⟨1, ![N]⟩ ⟨2, ![E, 1]⟩ ⟨1, ![E]⟩ [] [0] [0] 1) (e : Fin E) :
    (vecScatter N E wf).window (ix1 e) 0 = 0 := rfl

/-- Update `e` lands at `v` exactly when its index read signed is `v`. -/
theorem vecScatter_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (v : Fin N) :
    (vecScatter N E wf).resultIdx? (ix1 e) idx = some (ix1 v) ↔ (idx (ix2 e 0)).toInt = (v.val : Int) := by
  have h0 : (vecScatter N E wf).start (ix1 e) idx 0 + (vecScatter N E wf).window (ix1 e) 0
      = (idx (ix2 e 0)).toInt := by
    rw [vecScatter_start_zero, vecScatter_window_zero]; simp
  unfold ScatterDims.resultIdx?
  split
  · rename_i h
    rw [Option.some.injEq]
    constructor
    · intro heq
      have e0 : ((vecScatter N E wf).start (ix1 e) idx 0 + (vecScatter N E wf).window (ix1 e) 0).toNat = v.val :=
        congrArg (fun f => (f 0).val) heq
      have p0 := (h 0).1
      rw [h0] at e0 p0
      omega
    · intro hv
      funext a
      refine Fin.ext ?_
      match a with
      | ⟨0, _⟩ =>
        show ((vecScatter N E wf).start (ix1 e) idx 0 + (vecScatter N E wf).window (ix1 e) 0).toNat = v.val
        rw [h0, hv]; simp
  · rename_i h
    constructor
    · intro heq; exact absurd heq (by simp)
    · intro hv
      exfalso
      apply h
      intro a
      match a with
      | ⟨0, _⟩ =>
        show 0 ≤ (vecScatter N E wf).start (ix1 e) idx 0 + (vecScatter N E wf).window (ix1 e) 0
          ∧ (vecScatter N E wf).start (ix1 e) idx 0 + (vecScatter N E wf).window (ix1 e) 0 < (N : Int)
        rw [h0, hv]
        have := v.isLt
        omega

/-- Element `v` after the scatter: the operand's element plus the sum of the updates `e` whose index read signed is `v`. -/
theorem scatterAdd_vec_apply {φ : FTy} {N E w : Nat}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (v : Fin N) :
    Host.scatterAdd (F := Ideal) (vecScatter N E wf) x idx upd (ix1 v)
      = x (ix1 v) + ∑ e ∈ Finset.univ.filter (fun e : Fin E => (idx (ix2 e 0)).toInt = (v.val : Int)), upd (ix1 e) := by
  show x (ix1 v) + ∑ j ∈ Finset.univ.filter (fun j => (vecScatter N E wf).resultIdx? j idx = some (ix1 v)), upd j = _
  congr 1
  symm
  refine Finset.sum_bij (fun e _ => ix1 e) ?_ ?_ ?_ ?_
  · intro e he
    rw [Finset.mem_filter] at he ⊢
    exact ⟨Finset.mem_univ _, (vecScatter_resultIdx?_eq_some_iff wf idx e v).2 he.2⟩
  · intro a _ b _ hab
    exact congrFun hab 0
  · intro j hj
    obtain ⟨e, rfl⟩ : ∃ e : Fin E, j = ix1 e := ⟨j 0, eq_ix1 j⟩
    rw [Finset.mem_filter] at hj
    exact ⟨e, Finset.mem_filter.2 ⟨Finset.mem_univ _, (vecScatter_resultIdx?_eq_some_iff wf idx e v).1 hj.2⟩, rfl⟩
  · intro e _
    rfl

end Cert.LibGatherScatter

end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.Edges.lean ====
/-
  The edge list of the graph convolution as the two programs read it.

  A row gather reads the node whose number stands at the edge, taken as numpy takes an index — a negative number counts
  from the end, that is, the node count is added to it — and then clamped into the node range, as the host's gather clamps
  every start index. An accumulating scatter lets an edge land at the node whose number stands at the edge read as a signed
  integer and taken as it is: a number outside the node range lands nowhere. So an edge that lands at `v` has a
  non-negative target number below the node count, which neither the wrapping nor the clamping moves.
-/
import Idealize.ShloMosaic.Lib.ValueIdx
import proofs.«168969_j29274497089560_2_alg».proof.Proof.LibGatherScatter

noncomputable section

namespace Cert.GCN

open Idealize.ShloMosaic Idealize.ShloMosaic.ValueIdx Cert.LibGatherScatter

/-- A row number as numpy reads it: a negative one counts from the end (the node count is added). -/
def wrapIdx (b : BitVec 32) : BitVec 32 := Scalar.select (IntOp.cmpi .slt b 0#32) (IntOp.addi b 100000#32) b

/-- The node a row gather reads for the number held at edge `e`: wrapped, then clamped into the node range. -/
def nodeOf (R : IVec ⟨1, ![3300000]⟩ 32) (e : Fin 3300000) : Fin 100000 :=
  clampIdx 100000 (by decide) (wrapIdx (R (ix1 e)))

/-- The edges that land at node `v`: those whose target number, read signed and taken as it is, is `v`. -/
def hitsOf (C : IVec ⟨1, ![3300000]⟩ 32) (v : Fin 100000) : Finset (Fin 3300000) :=
  Finset.univ.filter fun e => (C (ix1 e)).toInt = (v.val : Int)

/-- An edge that lands at `v` has `v` itself for the node a gather reads at its target number. -/
theorem nodeOf_of_mem_hitsOf (C : IVec ⟨1, ![3300000]⟩ 32) (v : Fin 100000) (e : Fin 3300000) (he : e ∈ hitsOf C v) :
    nodeOf C e = v := by
  have h : (C (ix1 e)).toInt = (v.val : Int) := (Finset.mem_filter.mp he).2
  have hlt : ¬ ((C (ix1 e)).toInt < 0) := by rw [h]; omega
  have hs : IntOp.cmpi .slt (C (ix1 e)) 0#32 = 0#1 := by
    simp [IntOp.cmpi, BitVec.slt, hlt]
  unfold nodeOf wrapIdx
  rw [hs, select_zero]
  apply Fin.ext
  show min (C (ix1 e)).toInt.toNat (100000 - 1) = v.val
  rw [h, Int.toNat_natCast]
  have := v.isLt; omega

end Cert.GCN

end
-- ==== Proof.KernelStages.lean ====
/-
  The kernel's host operations between and after its two dense node transforms, read at an index.

  Over ANY contents `Wv` of the buffers when the stretch is entered:
  the middle stretch gathers the first transform's rows at the edges' source nodes, weights each by its edge and
  accumulates at the target nodes; the last stretch does the same with the second transform's column, scales the
  aggregate by the node factor and adds the output bias.
-/
import proofs.«168969_j29274497089560_2_alg».proof.Proof.Gen.KernelIdeal.Launch
import proofs.«168969_j29274497089560_2_alg».proof.Proof.LibGatherScatter
import proofs.«168969_j29274497089560_2_alg».proof.Proof.LibIndexRead
import proofs.«168969_j29274497089560_2_alg».proof.Proof.Edges
import Idealize.ShloMosaic.Lib.StableHlo.Run
import Idealize.ShloMosaic.PureOps.Ideal.Laws

noncomputable section

open scoped BigOperators

namespace Cert.KernelIdeal.Stages

open Cert.KernelIdeal Cert.KernelIdeal.Gen Idealize.ShloMosaic Idealize.ShloMosaic.TcCoe Idealize.ShloMosaic.StableHlo
open Idealize.ShloMosaic.ValueIdx Idealize.ShloMosaic.RowRead Cert.LibGatherScatter Cert.GCN

/-! ## The printed gathers and scatters -/

theorem scatter64_apply (x : FVec Ideal S100000x64 .f32) (idx : IVec S3300000x1 32) (upd : FVec Ideal S3300000x64 .f32)
    (v : Fin 100000) (c : Fin 64) :
    Host.scatterAdd (F := Ideal) scatter_S100000x64_S3300000x1_S3300000x64_1_0_0_1 x idx upd (ix2 v c)
      = x (ix2 v c) + ∑ e ∈ Finset.univ.filter (fun e : Fin 3300000 => (idx (ix2 e 0)).toInt = (v.val : Int)), upd (ix2 e c) :=
  scatterAdd_rows_apply scatter_S100000x64_S3300000x1_S3300000x64_1_0_0_1_wf x idx upd v c

theorem scatter1_apply (x : FVec Ideal S100000x1 .f32) (idx : IVec S3300000x1 32) (upd : FVec Ideal S3300000x1 .f32)
    (v : Fin 100000) (c : Fin 1) :
    Host.scatterAdd (F := Ideal) scatter_S100000x1_S3300000x1_S3300000x1_1_0_0_1 x idx upd (ix2 v c)
      = x (ix2 v c) + ∑ e ∈ Finset.univ.filter (fun e : Fin 3300000 => (idx (ix2 e 0)).toInt = (v.val : Int)), upd (ix2 e c) :=
  scatterAdd_rows_apply scatter_S100000x1_S3300000x1_S3300000x1_1_0_0_1_wf x idx upd v c

theorem gather64_apply {α : Type} (x : S100000x64.Idx → α) (idx : IVec S3300000x1 32) (e : Fin 3300000) (c : Fin 64) :
    Host.gather gather_S100000x64_S3300000x1_S3300000x64_1_0_n_n_0_1_164 x idx (ix2 e c)
      = x (ix2 (clampIdx 100000 (by decide) (idx (ix2 e 0))) c) :=
  gather_rows_apply (by decide) gather_S100000x64_S3300000x1_S3300000x64_1_0_n_n_0_1_164_wf x idx e c

theorem gather1_apply {α : Type} (x : S100000x1.Idx → α) (idx : IVec S3300000x1 32) (e : Fin 3300000) (c : Fin 1) :
    Host.gather gather_S100000x1_S3300000x1_S3300000x1_1_0_n_n_0_1_11 x idx (ix2 e c)
      = x (ix2 (clampIdx 100000 (by decide) (idx (ix2 e 0))) c) :=
  gather_rows_apply (by decide) gather_S100000x1_S3300000x1_S3300000x1_1_0_n_n_0_1_11_wf x idx e c

/-- The row numbers as the gathers take them — a negative one counted from the end — read at edge `e`. -/
theorem wrapped_apply (R : IVec S3300000 32) (e : Fin 3300000) :
    select (cmpi .slt R (broadcastInDim S3300000 ![] bcast_S_S3300000 (constantI S_ 32 0#32)))
        (addi R (broadcastInDim S3300000 ![] bcast_S_S3300000 (constantI S_ 32 100000#32))) R (ix1 e)
      = wrapIdx (R (ix1 e)) := rfl

/-- A `[b]` vector cast to the one row of `[1, b]` reads, at `(u, c)`, the vector at `c`. -/
theorem shapeCast_b_1b_apply {α : Type} {b : ℕ} (x : (⟨1, ![b]⟩ : Shape).Idx → α)
    (h : (⟨1, ![b]⟩ : Shape).ShapeCasts ⟨2, ![1, b]⟩) (u : Fin 1) (c : Fin b) :
    shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu, Nat.zero_mul, Nat.zero_add])

/-! ## The last stretch -/

/-- The result at node `v` from the buffers at the last stretch's entry: the node factor `D2`, the target numbers `C`,
    the source numbers `R`, the second transform's column `H2`, the edge weights `W2` as a column, the output bias. -/
def tailVal (D2 : S100000x1.Idx → EReal) (C R : IVec S3300000 32) (H2 : S100000x1.Idx → EReal)
    (W2 : S3300000x1.Idx → EReal) (B2 : S1.Idx → EReal) (v : Fin 100000) : EReal :=
  D2 (ix2 v (0 : Fin 1)) * (0 + ∑ e ∈ hitsOf C v, H2 (ix2 (nodeOf R e) (0 : Fin 1)) * W2 (ix2 e (0 : Fin 1)))
    + B2 (ix1 (0 : Fin 1))

set_option maxHeartbeats 4000000 in
/-- The last stretch: gather the second transform at the source nodes, weight, accumulate at the target nodes,
    scale by the node factor, add the bias. -/
theorem tail_apply (Wv : Valuation τ sig (Elt Ideal)) (v : Fin 100000) :
    (StableHlo.after (hostOps2 (F := Ideal)) Wv (Proc.devRef .tc main_v51) : S100000x1.Idx → EReal) (ix2 v (0 : Fin 1))
      = tailVal (Wv (Proc.devRef .tc main_v20)) (Wv (Proc.devRef .tc main_v6)) (Wv (Proc.devRef .tc main_v3))
          (Wv (Proc.devRef .tc main_v36)) (Wv (Proc.devRef .tc main_v9)) (Wv (Proc.devRef .tc main_arg6)) v := by
  after_results_simp
  unfold tailVal hitsOf nodeOf
  rw [addf_apply, mulf_apply, scatter1_apply]
  simp only [mulf_apply, gather1_apply, wrapped_apply, broadcastInDim_a_a1_apply _ bcast_S3300000_S3300000x1_0 rfl,
    broadcastInDim_scalar_apply, constant_apply, Ideal.ofBits_zero_f32,
    broadcastInDim_1b_ab_apply _ bcast_S1x1_S100000x1_0_1 rfl, broadcastInDim_b_1b_apply _ bcast_S1_S1x1_1 rfl]
  rfl

/-! ## The middle stretch -/

/-- The aggregate at node `u`, feature `j` from the buffers at the middle stretch's entry: the first transform's rows `H1`
    gathered at the source nodes, weighted, accumulated at the target nodes. -/
def midVal (C R : IVec S3300000 32) (H1 : S100000x64.Idx → EReal) (W2 : S3300000x1.Idx → EReal)
    (u : Fin 100000) (j : Fin 64) : EReal :=
  0 + ∑ e ∈ hitsOf C u, H1 (ix2 (nodeOf R e) j) * W2 (ix2 e (0 : Fin 1))

set_option maxHeartbeats 4000000 in
theorem mid_apply (Wv : Valuation τ sig (Elt Ideal)) (u : Fin 100000) (j : Fin 64) :
    (StableHlo.after (hostOps1 (F := Ideal)) Wv (Proc.devRef .tc main_v34) : S100000x64.Idx → EReal) (ix2 u j)
      = midVal (Wv (Proc.devRef .tc main_v6)) (Wv (Proc.devRef .tc main_v3)) (Wv (Proc.devRef .tc main_v21))
          (Wv (Proc.devRef .tc main_v9)) u j := by
  after_results_simp
  unfold midVal hitsOf nodeOf
  rw [scatter64_apply]
  simp only [mulf_apply, extf_apply, gather64_apply, wrapped_apply, broadcastInDim_a_a1_apply _ bcast_S3300000_S3300000x1_0 rfl,
    broadcastInDim_scalar_apply, constant_apply, Ideal.ofBits_zero_f32,
    broadcastInDim_a1_ab_apply _ bcast_S3300000x1_S3300000x64_0_1 rfl]
  rfl

set_option maxHeartbeats 4000000 in
/-- The bias row the second transform reads is the bias vector laid as one row. -/
theorem mid_bias_apply (Wv : Valuation τ sig (Elt Ideal)) (j : Fin 64) :
    (StableHlo.after (hostOps1 (F := Ideal)) Wv (Proc.devRef .tc main_v35) : S1x64.Idx → EReal) (ix2 (0 : Fin 1) j)
      = (Wv (Proc.devRef .tc main_arg4) : S64.Idx → EReal) (ix1 j) := by
  after_results_simp
  exact shapeCast_b_1b_apply _ _ 0 j

end Cert.KernelIdeal.Stages

end
-- ==== Proof.Payload0.lean ====
/-
  The arithmetic of the first region's body at one entry of its block.

  The body takes a block `x` of 5000 rows of the node features (5000 × 128), the whole weight matrix `w`
  (128 × 64) and the block `d` of the per-row scale kept as a column (5000 × 1). It multiplies the row block by
  the weights (a contraction over the 128 features, accumulated from zero) and scales row `p` of the product by
  `d p`. A change of float format is the identity on the extended reals, and the zero accumulator contributes
  nothing, so entry (p, q) of what the body stores is  (∑ k, x (p, k) · w (k, q)) · d (p, 0).
-/
import proofs.«168969_j29274497089560_2_alg».proof.Proof.Gen.KernelIdeal.Skeleton
import proofs.«168969_j29274497089560_2_alg».proof.Proof.LibIndexRead
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Idealize.ShloMosaic Idealize.ShloMosaic.ValueIdx Idealize.ShloMosaic.RowRead
open Cert.KernelIdeal Cert.KernelIdeal.Gen

/-! ## The operand indices of the 5000 × 128 by 128 × 64 product

At output index `i` and contraction index `r` the left operand is read at (row of `i`, `r`) and the right one at
(`r`, column of `i`). -/

theorem lhs0_row (i : S5000x64.Idx) (r : dot_S5000x128_S128x64_S5000x64_1_0_0_1_n_n.contr.Idx) :
    (dot_S5000x128_S128x64_S5000x64_1_0_0_1_n_n.lhsIdx i r 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

theorem lhs0_contr (i : S5000x64.Idx) (r : dot_S5000x128_S128x64_S5000x64_1_0_0_1_n_n.contr.Idx) :
    (dot_S5000x128_S128x64_S5000x64_1_0_0_1_n_n.lhsIdx i r 1).val = (r ⟨0, by decide⟩).val :=
  dot_S5000x128_S128x64_S5000x64_1_0_0_1_n_n.lhsIdx_val_of_single rfl i r

theorem rhs0_contr (i : S5000x64.Idx) (r : dot_S5000x128_S128x64_S5000x64_1_0_0_1_n_n.contr.Idx) :
    (dot_S5000x128_S128x64_S5000x64_1_0_0_1_n_n.rhsIdx i r 0).val = (r ⟨0, by decide⟩).val :=
  dot_S5000x128_S128x64_S5000x64_1_0_0_1_n_n.rhsIdx_val_of_single rfl i r

theorem rhs0_col (i : S5000x64.Idx) (r : dot_S5000x128_S128x64_S5000x64_1_0_0_1_n_n.contr.Idx) :
    (dot_S5000x128_S128x64_S5000x64_1_0_0_1_n_n.rhsIdx i r 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The product of a 5000 × 128 block and the 128 × 64 matrix, accumulated from zero, read at (p, q): the sum over
    the contracted axis of the products of row `p` of the block and column `q` of the matrix. -/
theorem matmul_5000x128_128x64_apply (a : FVec Ideal S5000x128 .bf16) (b : FVec Ideal S128x64 .bf16)
    (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k :=
    funext fun ax => Fin.ext (by
      match ax with
      | ⟨0, _⟩ => exact lhs0_row _ _
      | ⟨1, _⟩ => exact (lhs0_contr _ _).trans hk)
  have er : dot_S5000x128_S128x64_S5000x64_1_0_0_1_n_n.rhsIdx (ix2 p q)
      ((contrEquiv1 dot_S5000x128_S128x64_S5000x64_1_0_0_1_n_n 128 rfl rfl).symm k) = ix2 k q :=
    funext fun ax => Fin.ext (by
      match ax with
      | ⟨0, _⟩ => exact (rhs0_contr _ _).trans hk
      | ⟨1, _⟩ => exact rhs0_col _ _)
  rw [el, er]

/-- What the first region's body stores, at entry (p, q) of its block. -/
theorem k0_pay1_apply (x : Vec Ideal S5000x128 .f32) (w : Vec Ideal S128x64 .f32) (d : Vec Ideal S5000x1 .f32)
    (p : Fin 5000) (q : Fin 64) :
    (k0_pay1 (F := Ideal) x w d (ix2 p q) : EReal)
      = (∑ k : Fin 128, (x (ix2 p k) : EReal) * (w (ix2 k q) : EReal)) * (d (ix2 p (0 : Fin 1)) : EReal) := by
  unfold k0_pay1
  show (matmul dot_S5000x128_S128x64_S5000x64_1_0_0_1_n_n none (truncf .bf16 x bitsLt_bf16_f32) (truncf .bf16 w bitsLt_bf16_f32)
          (constant (F := Ideal) S5000x64 .f32 0x00000000#32) (ix2 p q) : EReal)
        * (broadcastTo S5000x64 (shapeCast S5000x1 d shapeCasts_S5000x1_S5000x1) broadcasts_S5000x1_S5000x64 (ix2 p q) : EReal) = _
  refine congrArg₂ (· * ·) ?_ ?_
  · exact (matmul_5000x128_128x64_apply _ _ p q).trans (Finset.sum_congr rfl fun k _ => rfl)
  · refine (broadcastTo_a1_ab_apply _ broadcasts_S5000x1_S5000x64 p q).trans ?_
    rw [shapeCast_self]

end Cert.KernelIdeal.RegionValue

end
-- ==== Proof.Region0.lean ====
/-
  The first region's output array as one function of the arrays the region finds.

  The grid has 20 points; point `t` works on rows 5000·t … 5000·t + 4999: its block of the node features, its block
  of the per-row scale, and (at every point) the whole 128 × 64 weight matrix, and it writes back the same rows of the
  64-column output. Entry (p, q) of what it writes is the body's arithmetic at (p, q), which reads row `p` of the
  feature block, column `q` of the weights and entry `p` of the scale block; in the array's coordinates these are row
  v = 5000·t + p and column q. The 20 row blocks tile the 100000 rows (row v lies in the block of point v / 5000), so
  the output array ends holding, at (v, j),   (∑ k, X (v, k) · W (k, j)) · D (v, 0).
-/
import proofs.«168969_j29274497089560_2_alg».proof.Proof.Gen.KernelIdeal.Frame
import proofs.«168969_j29274497089560_2_alg».proof.Proof.Payload0
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets2 : (![0, 0] : Fin 2 → Nat) = fun _ => 0 := funext fun a => by fin_cases a <;> rfl

/-- Two functions of a two-axis index that agree at every pair of coordinates are equal. -/
theorem ext_ix2 {n0 n1 : ℕ} {α : Type} {f g : (⟨2, ![n0, n1]⟩ : Shape).Idx → α}
    (h : ∀ (p : Fin n0) (q : Fin n1), f (ix2 p q) = g (ix2 p q)) : f = g :=
  funext fun y => by rw [eq_ix2 y]; exact h _ _

/-- Row `v`, column `j` of the scaled product: features `X` times weights `W`, row `v` scaled by `D v`. -/
def scaledProduct (X : S100000x128.Idx → EReal) (W : S128x64.Idx → EReal) (D : S100000x1.Idx → EReal)
    (v : Fin 100000) (j : Fin 64) : EReal :=
  (∑ k : Fin 128, X (ix2 v k) * W (ix2 k j)) * D (ix2 v (0 : Fin 1))

/-- The same as a whole array, index by index. -/
abbrev scaledProductArr (X : S100000x128.Idx → EReal) (W : S128x64.Idx → EReal) (D : S100000x1.Idx → EReal) :
    S100000x64.Idx → EReal :=
  fun i => scaledProduct X W D ⟨(i 0).val, idx2_lt0 i⟩ ⟨(i 1).val, idx2_lt1 i⟩

/-- One entry of one point's result: when row `p` of the feature block is row `v` of the features, column `q` of the
    weight block is column `j` of the weights and entry `p` of the scale block is entry `v` of the scale, the body's
    entry (p, q) is the scaled product at (v, j). -/
theorem block0_entry (x : Vec Ideal S5000x128 .f32) (w : Vec Ideal S128x64 .f32) (d : Vec Ideal S5000x1 .f32)
    (X : S100000x128.Idx → EReal) (W : S128x64.Idx → EReal) (D : S100000x1.Idx → EReal)
    (p : Fin 5000) (q : Fin 64) (v : Fin 100000) (j : Fin 64)
    (hx : ∀ k : Fin 128, (x (ix2 p k) : EReal) = X (ix2 v k))
    (hw : ∀ k : Fin 128, (w (ix2 k q) : EReal) = W (ix2 k j))
    (hd : (d (ix2 p (0 : Fin 1)) : EReal) = D (ix2 v (0 : Fin 1))) :
    (k0_pay1 (F := Ideal) x w d (ix2 p q) : EReal) = scaledProduct X W D v j := by
  rw [k0_pay1_apply, hd]
  unfold scaledProduct
  exact congrArg (· * D (ix2 v (0 : Fin 1))) (Finset.sum_congr rfl fun k _ => by rw [hx k, hw k])

/-- The printed index maps over the grid: the feature, scale and output windows are at row block `t`, column block 0;
    the weight window is the whole matrix at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the scaled product of the arrays the region finds. -/
theorem flushed0 (c : Dev nD) (t : Fin cfg0.N) :
    (dat0 (F := Ideal) V c).flushed 3 t
      = ((cfg0.win 3).blk t).view.read (Elt Ideal) (scaledProductArr (V c main_arg0) (V c main_arg3) (V c main_v20)) := by
  show (cfg0.win 3).cut (grid0.coords t) ((dat0 V c).after 3 t) = _
  rw [after0_3]
  unfold out0_3
  rw [View.canon_unit_zero zero_offsets2]
  simp only [View.ld_unit_zero (S := S5000x128) zero_offsets2, View.ld_unit_zero (S := S128x64) zero_offsets2,
    View.ld_unit_zero (S := S5000x1) zero_offsets2]
  obtain ⟨e00, e01, e10, e11, e20, e21, e30, e31⟩ := idx_facts0 t
  refine ext_ix2 (n0 := 5000) (n1 := 64) fun p q => ?_
  show (k0_pay1 (F := Ideal) (iblk0 V c 0 t) (iblk0 V c 1 t) (iblk0 V c 2 t) (ix2 p q) : EReal)
      = scaledProductArr (V c main_arg0) (V c main_arg3) (V c main_v20) (((cfg0.win 3).blk t).view.emb (ix2 p q))
  refine block0_entry (iblk0 V c 0 t) (iblk0 V c 1 t) (iblk0 V c 2 t) (V c main_arg0) (V c main_arg3) (V c main_v20)
    p q _ _ (fun k => ?_) (fun k => ?_) ?_
  · show V c main_arg0 (((cfg0.win 0).blk t).view.emb (ix2 p k)) = _
    refine congrArg (V c main_arg0) (funext fun a => Fin.ext ?_)
    match a with
    | ⟨0, _⟩ =>
      show win0_0.index t (0 : Fin 2) * 5000 + 1 * p.val = win0_3.index t (0 : Fin 2) * 5000 + 1 * p.val
      rw [e00, e30]
    | ⟨1, _⟩ =>
      show win0_0.index t (1 : Fin 2) * 128 + 1 * k.val = k.val
      rw [e01]; omega
  · show V c main_arg3 (((cfg0.win 1).blk t).view.emb (ix2 k q)) = _
    refine congrArg (V c main_arg3) (funext fun a => Fin.ext ?_)
    match a with
    | ⟨0, _⟩ =>
      show win0_1.index t (0 : Fin 2) * 128 + 1 * k.val = k.val
      rw [e10]; omega
    | ⟨1, _⟩ =>
      show win0_1.index t (1 : Fin 2) * 64 + 1 * q.val = win0_3.index t (1 : Fin 2) * 64 + 1 * q.val
      rw [e11, e31]
  · show V c main_v20 (((cfg0.win 2).blk t).view.emb (ix2 p (0 : Fin 1))) = _
    refine congrArg (V c main_v20) (funext fun a => Fin.ext ?_)
    match a with
    | ⟨0, _⟩ =>
      show win0_2.index t (0 : Fin 2) * 5000 + 1 * p.val = win0_3.index t (0 : Fin 2) * 5000 + 1 * p.val
      rw [e20, e30]
    | ⟨1, _⟩ =>
      show win0_2.index t (1 : Fin 2) * 1 + 1 * 0 = 0
      rw [e21]

/-- An index of the output array is in point `t`'s block iff each coordinate is in the block's range on its axis. -/
theorem mem_blk0 (t : Fin cfg0.N) (i : S100000x64.Idx) :
    i ∈ ((cfg0.win 3).blk t).view.set
      ↔ ∀ a : Fin 2, win0_3.index t a * S5000x64.size a ≤ (i a).val
          ∧ (i a).val < win0_3.index t a * S5000x64.size a + S5000x64.size a := by
  show i ∈ ((View.whole main_v21).slice (win0_3.rect t)).set ↔ _
  rw [View.set_slice_whole, Rect.mem_set_unit]
  exact Iff.rfl

/-- The row blocks tile the output: row `v` is in the block of point `v / 5000`. -/
theorem cover0 (i : S100000x64.Idx) :
    ∃ t : Fin cfg0.N, (cfg0.win 3).flush t = true ∧ i ∈ ((cfg0.win 3).blk t).view.set := by
  have hN : cfg0.N = 20 := N_0
  have hi0 : (i 0).val < 100000 := idx2_lt0 i
  have hi1 : (i 1).val < 64 := idx2_lt1 i
  refine ⟨⟨(i 0).val / 5000, by rw [hN]; omega⟩, flush0_3 _, ?_⟩
  rw [mem_blk0]
  obtain ⟨-, -, -, -, -, -, e30, e31⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]
    show (i 0).val / 5000 * 5000 ≤ (i 0).val ∧ (i 0).val < (i 0).val / 5000 * 5000 + 5000
    omega
  | ⟨1, _⟩ =>
    show win0_3.index _ (1 : Fin 2) * 64 ≤ (i 1).val ∧ (i 1).val < win0_3.index _ (1 : Fin 2) * 64 + 64
    rw [e31]
    omega

/-- THE OUTPUT ARRAY of the first region, whatever the arrays `V` it finds: the scaled product of the features, the
    weights and the scale column. -/
theorem region0_array (c : Dev nD) :
    (dat0 (F := Ideal) V c).arrAt 3 cfg0.N = scaledProductArr (V c main_arg0) (V c main_arg3) (V c main_v20) :=
  (dat0 (F := Ideal) V c).arrAt_eq_of_cover 3 (scaledProductArr (V c main_arg0) (V c main_arg3) (V c main_v20))
    (fun t _ => flushed0 V c t) cover0

/-- The scaled product at (v, j), written out. -/
theorem scaledProduct_apply (X : S100000x128.Idx → EReal) (W : S128x64.Idx → EReal) (D : S100000x1.Idx → EReal)
    (v : Fin 100000) (j : Fin 64) :
    scaledProduct X W D v j = (∑ k : Fin 128, X (ix2 v k) * W (ix2 k j)) * D (ix2 v (0 : Fin 1)) := rfl

/-- The output array read at row `v` and column `j`. -/
theorem region0_value (c : Dev nD) (v : Fin 100000) (j : Fin 64) :
    ((dat0 (F := Ideal) V c).arrAt 3 cfg0.N : S100000x64.Idx → EReal) (ix2 v j)
      = scaledProduct (V c main_arg0) (V c main_arg3) (V c main_v20) v j := by
  rw [region0_array V c]

end Cert.KernelIdeal.RegionValue

end
-- ==== Proof.Payload1.lean ====
/-
  The arithmetic of the second region's body at one entry of its block.

  The body takes a block `h` of 5000 rows of the 64 aggregated features (5000 × 64), the block `d` of the per-row
  scale kept as a column (5000 × 1, loaded twice), the bias `b` as a row (1 × 64) and the weights `w` of the output
  layer as a column (64 × 1). It scales row `p` of `h` by `d p`, adds the bias, clamps below at zero, contracts the 64
  features against `w` (accumulated from zero) and scales the result by `d p` again. A change of float format is the
  identity on the extended reals, so entry `p` of what the body stores is
      (∑ j, max (h (p, j) · d (p, 0) + b (0, j)) 0 · w (j, 0)) · d (p, 0).
-/
import proofs.«168969_j29274497089560_2_alg».proof.Proof.Gen.KernelIdeal.Skeleton
import proofs.«168969_j29274497089560_2_alg».proof.Proof.LibIndexRead
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Idealize.ShloMosaic Idealize.ShloMosaic.ValueIdx Idealize.ShloMosaic.RowRead
open Cert.KernelIdeal Cert.KernelIdeal.Gen

/-! ## The operand indices of the 5000 × 64 by 64 × 1 product

At output index `i` and contraction index `r` the left operand is read at (row of `i`, `r`) and the right one at
(`r`, column of `i`). -/

theorem lhs1_row (i : S5000x1.Idx) (r : dot_S5000x64_S64x1_S5000x1_1_0_0_1_n_n.contr.Idx) :
    (dot_S5000x64_S64x1_S5000x1_1_0_0_1_n_n.lhsIdx i r 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl

theorem lhs1_contr (i : S5000x1.Idx) (r : dot_S5000x64_S64x1_S5000x1_1_0_0_1_n_n.contr.Idx) :
    (dot_S5000x64_S64x1_S5000x1_1_0_0_1_n_n.lhsIdx i r 1).val = (r ⟨0, by decide⟩).val :=
  dot_S5000x64_S64x1_S5000x1_1_0_0_1_n_n.lhsIdx_val_of_single rfl i r

theorem rhs1_contr (i : S5000x1.Idx) (r : dot_S5000x64_S64x1_S5000x1_1_0_0_1_n_n.contr.Idx) :
    (dot_S5000x64_S64x1_S5000x1_1_0_0_1_n_n.rhsIdx i r 0).val = (r ⟨0, by decide⟩).val :=
  dot_S5000x64_S64x1_S5000x1_1_0_0_1_n_n.rhsIdx_val_of_single rfl i r

theorem rhs1_col (i : S5000x1.Idx) (r : dot_S5000x64_S64x1_S5000x1_1_0_0_1_n_n.contr.Idx) :
    (dot_S5000x64_S64x1_S5000x1_1_0_0_1_n_n.rhsIdx i r 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- The product of a 5000 × 64 block and a 64 × 1 column, accumulated from zero, read at (p, u): the sum over the
    contracted axis of the products of row `p` of the block and the column. -/
theorem matmul_5000x64_64x1_apply (a : FVec Ideal S5000x64 .bf16) (b : FVec Ideal S64x1 .bf16)
    (p : Fin 5000) (u : Fin 1) :
    matmul dot_S5000x64_S64x1_S5000x1_1_0_0_1_n_n none a b (constant (F := Ideal) S5000x1 .f32 0x00000000#32) (ix2 p u)
      = ∑ j : Fin 64, a (ix2 p j) * b (ix2 j u) := by
  simp only [matmul]
  rw [Ideal.matmul_constant_zero_apply,
    ← Equiv.sum_comp (contrEquiv1 dot_S5000x64_S64x1_S5000x1_1_0_0_1_n_n 64 rfl rfl).symm]
  refine Finset.sum_congr rfl fun j _ => ?_
  have hj := contrEquiv1_symm_val dot_S5000x64_S64x1_S5000x1_1_0_0_1_n_n 64 rfl rfl j
  have el : dot_S5000x64_S64x1_S5000x1_1_0_0_1_n_n.lhsIdx (ix2 p u)
      ((contrEquiv1 dot_S5000x64_S64x1_S5000x1_1_0_0_1_n_n 64 rfl rfl).symm j) = ix2 p j :=
    funext fun ax => Fin.ext (by
      match ax with
      | ⟨0, _⟩ => exact lhs1_row _ _
      | ⟨1, _⟩ => exact (lhs1_contr _ _).trans hj)
  have er : dot_S5000x64_S64x1_S5000x1_1_0_0_1_n_n.rhsIdx (ix2 p u)
      ((contrEquiv1 dot_S5000x64_S64x1_S5000x1_1_0_0_1_n_n 64 rfl rfl).symm j) = ix2 j u :=
    funext fun ax => Fin.ext (by
      match ax with
      | ⟨0, _⟩ => exact (rhs1_contr _ _).trans hj
      | ⟨1, _⟩ => exact rhs1_col _ _)
  rw [el, er]

/-- The clamped affine image of the aggregated features, at (p, j): row `p` scaled by `d p`, plus the bias, clamped
    below at zero. -/
theorem hidden_apply (h : Vec Ideal S5000x64 .f32) (d : Vec Ideal S5000x1 .f32) (b : Vec Ideal S1x64 .f32)
    (p : Fin 5000) (j : Fin 64) :
    (maximumf (addf (mulf (shapeCast S5000x64 h shapeCasts_S5000x64_S5000x64)
          (broadcastTo S5000x64 (shapeCast S5000x1 d shapeCasts_S5000x1_S5000x1) broadcasts_S5000x1_S5000x64))
        (broadcastTo S5000x64 (shapeCast S1x64 b shapeCasts_S1x64_S1x64) broadcasts_S1x64_S5000x64))
      (broadcast S5000x64 (Scalar.ofBits (F := Ideal) .f32 0x00000000#32)) (ix2 p j) : EReal)
      = max ((h (ix2 p j) : EReal) * (d (ix2 p (0 : Fin 1)) : EReal) + (b (ix2 (0 : Fin 1) j) : EReal)) 0 := by
  show max ((shapeCast S5000x64 h shapeCasts_S5000x64_S5000x64 (ix2 p j) : EReal)
        * (broadcastTo S5000x64 (shapeCast S5000x1 d shapeCasts_S5000x1_S5000x1) broadcasts_S5000x1_S5000x64 (ix2 p j) : EReal)
        + (broadcastTo S5000x64 (shapeCast S1x64 b shapeCasts_S1x64_S1x64) broadcasts_S1x64_S5000x64 (ix2 p j) : EReal))
      (Ideal.ofBits .f32 0x00000000#32) = _
  rw [Ideal.ofBits_zero_f32, broadcastTo_a1_ab_apply, broadcastTo_1b_ab_apply,
    shapeCast_self, shapeCast_self, shapeCast_self]

/-- What the second region's body stores, at entry (p, u) of its one-column block. -/
theorem k1_pay1_apply (h : Vec Ideal S5000x64 .f32) (d : Vec Ideal S5000x1 .f32) (b : Vec Ideal S1x64 .f32)
    (w : Vec Ideal S64x1 .f32) (d' : Vec Ideal S5000x1 .f32) (p : Fin 5000) (u : Fin 1) :
    (k1_pay1 (F := Ideal) h d b w d' (ix2 p u) : EReal)
      = (∑ j : Fin 64, max ((h (ix2 p j) : EReal) * (d (ix2 p (0 : Fin 1)) : EReal) + (b (ix2 (0 : Fin 1) j) : EReal)) 0
            * (w (ix2 j (0 : Fin 1)) : EReal)) * (d' (ix2 p (0 : Fin 1)) : EReal) := by
  obtain rfl : u = 0 := Subsingleton.elim u 0
  unfold k1_pay1
  show (matmul dot_S5000x64_S64x1_S5000x1_1_0_0_1_n_n none
          (truncf .bf16 (maximumf (addf (mulf (shapeCast S5000x64 h shapeCasts_S5000x64_S5000x64)
                (broadcastTo S5000x64 (shapeCast S5000x1 d shapeCasts_S5000x1_S5000x1) broadcasts_S5000x1_S5000x64))
              (broadcastTo S5000x64 (shapeCast S1x64 b shapeCasts_S1x64_S1x64) broadcasts_S1x64_S5000x64))
            (broadcast S5000x64 (Scalar.ofBits (F := Ideal) .f32 0x00000000#32))) bitsLt_bf16_f32)
          (truncf .bf16 w bitsLt_bf16_f32) (constant (F := Ideal) S5000x1 .f32 0x00000000#32) (ix2 p (0 : Fin 1)) : EReal)
        * (shapeCast S5000x1 d' shapeCasts_S5000x1_S5000x1 (ix2 p (0 : Fin 1)) : EReal) = _
  refine congrArg₂ (· * ·) ?_ ?_
  · refine (matmul_5000x64_64x1_apply _ _ p 0).trans (Finset.sum_congr rfl fun j _ => ?_)
    exact congrArg (· * (w (ix2 j (0 : Fin 1)) : EReal)) (hidden_apply h d b p j)
  · rw [shapeCast_self]

end Cert.KernelIdeal.RegionValue

end
-- ==== Proof.Region1.lean ====
/-
  The second region's output array as one function of the arrays the region finds.

  The grid has 20 points; point `t` works on rows 5000·t … 5000·t + 4999: its block of the 64 aggregated features and
  its block of the per-row scale, and (at every point) the whole bias row and the whole 64 × 1 weight column, and it
  writes back the same rows of the one-column output. Entry `p` of what it writes is the body's arithmetic at `p`,
  which reads row `p` of the feature block, entry `p` of the scale block, the bias and the weights; in the array's
  coordinates the row is v = 5000·t + p. The 20 row blocks tile the 100000 rows (row v lies in the block of point
  v / 5000), so the output array ends holding, at (v, 0),
      (∑ j, max (H (v, j) · D (v, 0) + B (0, j)) 0 · W (j, 0)) · D (v, 0).
-/
import proofs.«168969_j29274497089560_2_alg».proof.Proof.Gen.KernelIdeal.Frame
import proofs.«168969_j29274497089560_2_alg».proof.Proof.Payload1
import proofs.«168969_j29274497089560_2_alg».proof.Proof.Region0
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Row `v` of the output layer: the aggregated features `H` of row `v` scaled by `D v`, plus the bias `B`, clamped below
    at zero, contracted against the weights `W`, and scaled by `D v` again. -/
def clampedHead (H : S100000x64.Idx → EReal) (D : S100000x1.Idx → EReal) (B : S1x64.Idx → EReal)
    (W : S64x1.Idx → EReal) (v : Fin 100000) : EReal :=
  (∑ j : Fin 64, max (H (ix2 v j) * D (ix2 v (0 : Fin 1)) + B (ix2 (0 : Fin 1) j)) 0 * W (ix2 j (0 : Fin 1)))
    * D (ix2 v (0 : Fin 1))

/-- The same written out. -/
theorem clampedHead_apply (H : S100000x64.Idx → EReal) (D : S100000x1.Idx → EReal) (B : S1x64.Idx → EReal)
    (W : S64x1.Idx → EReal) (v : Fin 100000) :
    clampedHead H D B W v
      = (∑ j : Fin 64, max (H (ix2 v j) * D (ix2 v (0 : Fin 1)) + B (ix2 (0 : Fin 1) j)) 0 * W (ix2 j (0 : Fin 1)))
          * D (ix2 v (0 : Fin 1)) := rfl

/-- The same as a whole one-column array, index by index. -/
abbrev clampedHeadArr (H : S100000x64.Idx → EReal) (D : S100000x1.Idx → EReal) (B : S1x64.Idx → EReal)
    (W : S64x1.Idx → EReal) : S100000x1.Idx → EReal :=
  fun i => clampedHead H D B W ⟨(i 0).val, idx2_lt0 i⟩

/-- One entry of one point's result: when row `p` of the feature block is row `v` of the features, entry `p` of the
    scale block is entry `v` of the scale, and the bias and weight blocks are the bias and the weights, the body's
    entry `p` is the output layer's row `v`. -/
theorem block1_entry (h : Vec Ideal S5000x64 .f32) (d : Vec Ideal S5000x1 .f32) (b : Vec Ideal S1x64 .f32)
    (w : Vec Ideal S64x1 .f32)
    (H : S100000x64.Idx → EReal) (D : S100000x1.Idx → EReal) (B : S1x64.Idx → EReal) (W : S64x1.Idx → EReal)
    (p : Fin 5000) (u : Fin 1) (v : Fin 100000)
    (hh : ∀ j : Fin 64, (h (ix2 p j) : EReal) = H (ix2 v j))
    (hd : (d (ix2 p (0 : Fin 1)) : EReal) = D (ix2 v (0 : Fin 1)))
    (hb : ∀ j : Fin 64, (b (ix2 (0 : Fin 1) j) : EReal) = B (ix2 (0 : Fin 1) j))
    (hw : ∀ j : Fin 64, (w (ix2 j (0 : Fin 1)) : EReal) = W (ix2 j (0 : Fin 1))) :
    (k1_pay1 (F := Ideal) h d b w d (ix2 p u) : EReal) = clampedHead H D B W v := by
  rw [k1_pay1_apply, hd]
  unfold clampedHead
  exact congrArg (· * D (ix2 v (0 : Fin 1))) (Finset.sum_congr rfl fun j _ => by rw [hh j, hb j, hw j])

/-- The printed index maps over the grid: the feature, scale and output windows are at row block `t`, column block 0;
    the bias and weight windows are the whole arrays at every point. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the output layer of the arrays the region finds. -/
theorem flushed1 (c : Dev nD) (t : Fin cfg1.N) :
    (dat1 (F := Ideal) V c).flushed 4 t
      = ((cfg1.win 4).blk t).view.read (Elt Ideal)
          (clampedHeadArr (V c main_v34) (V c main_v20) (V c main_v35) (V c main_arg5)) := by
  show (cfg1.win 4).cut (grid1.coords t) ((dat1 V c).after 4 t) = _
  rw [after1_4]
  unfold out1_4
  rw [View.canon_unit_zero zero_offsets2]
  simp only [View.ld_unit_zero (S := S5000x64) zero_offsets2, View.ld_unit_zero (S := S5000x1) zero_offsets2,
    View.ld_unit_zero (S := S1x64) zero_offsets2, View.ld_unit_zero (S := S64x1) zero_offsets2]
  obtain ⟨e00, e01, e10, e11, e20, e21, e30, e31, e40, e41⟩ := idx_facts1 t
  refine ext_ix2 (n0 := 5000) (n1 := 1) fun p u => ?_
  show (k1_pay1 (F := Ideal) (iblk1 V c 0 t) (iblk1 V c 1 t) (iblk1 V c 2 t) (iblk1 V c 3 t) (iblk1 V c 1 t) (ix2 p u) : EReal)
      = clampedHeadArr (V c main_v34) (V c main_v20) (V c main_v35) (V c main_arg5) (((cfg1.win 4).blk t).view.emb (ix2 p u))
  refine block1_entry (iblk1 V c 0 t) (iblk1 V c 1 t) (iblk1 V c 2 t) (iblk1 V c 3 t)
    (V c main_v34) (V c main_v20) (V c main_v35) (V c main_arg5) p u _ (fun j => ?_) ?_ (fun j => ?_) (fun j => ?_)
  · show V c main_v34 (((cfg1.win 0).blk t).view.emb (ix2 p j)) = _
    refine congrArg (V c main_v34) (funext fun a => Fin.ext ?_)
    match a with
    | ⟨0, _⟩ =>
      show win1_0.index t (0 : Fin 2) * 5000 + 1 * p.val = win1_4.index t (0 : Fin 2) * 5000 + 1 * p.val
      rw [e00, e40]
    | ⟨1, _⟩ =>
      show win1_0.index t (1 : Fin 2) * 64 + 1 * j.val = j.val
      rw [e01]; omega
  · show V c main_v20 (((cfg1.win 1).blk t).view.emb (ix2 p (0 : Fin 1))) = _
    refine congrArg (V c main_v20) (funext fun a => Fin.ext ?_)
    match a with
    | ⟨0, _⟩ =>
      show win1_1.index t (0 : Fin 2) * 5000 + 1 * p.val = win1_4.index t (0 : Fin 2) * 5000 + 1 * p.val
      rw [e10, e40]
    | ⟨1, _⟩ =>
      show win1_1.index t (1 : Fin 2) * 1 + 1 * 0 = 0
      rw [e11]
  · show V c main_v35 (((cfg1.win 2).blk t).view.emb (ix2 (0 : Fin 1) j)) = _
    refine congrArg (V c main_v35) (funext fun a => Fin.ext ?_)
    match a with
    | ⟨0, _⟩ =>
      show win1_2.index t (0 : Fin 2) * 1 + 1 * 0 = 0
      rw [e20]
    | ⟨1, _⟩ =>
      show win1_2.index t (1 : Fin 2) * 64 + 1 * j.val = j.val
      rw [e21]; omega
  · show V c main_arg5 (((cfg1.win 3).blk t).view.emb (ix2 j (0 : Fin 1))) = _
    refine congrArg (V c main_arg5) (funext fun a => Fin.ext ?_)
    match a with
    | ⟨0, _⟩ =>
      show win1_3.index t (0 : Fin 2) * 64 + 1 * j.val = j.val
      rw [e30]; omega
    | ⟨1, _⟩ =>
      show win1_3.index t (1 : Fin 2) * 1 + 1 * 0 = 0
      rw [e31]

/-- An index of the output array is in point `t`'s block iff each coordinate is in the block's range on its axis. -/
theorem mem_blk1 (t : Fin cfg1.N) (i : S100000x1.Idx) :
    i ∈ ((cfg1.win 4).blk t).view.set
      ↔ ∀ a : Fin 2, win1_4.index t a * S5000x1.size a ≤ (i a).val
          ∧ (i a).val < win1_4.index t a * S5000x1.size a + S5000x1.size a := by
  show i ∈ ((View.whole main_v36).slice (win1_4.rect t)).set ↔ _
  rw [View.set_slice_whole, Rect.mem_set_unit]
  exact Iff.rfl

/-- The row blocks tile the output: row `v` is in the block of point `v / 5000`. -/
theorem cover1 (i : S100000x1.Idx) :
    ∃ t : Fin cfg1.N, (cfg1.win 4).flush t = true ∧ i ∈ ((cfg1.win 4).blk t).view.set := by
  have hN : cfg1.N = 20 := N_1
  have hi0 : (i 0).val < 100000 := idx2_lt0 i
  have hi1 : (i 1).val < 1 := idx2_lt1 i
  refine ⟨⟨(i 0).val / 5000, by rw [hN]; omega⟩, flush1_4 _, ?_⟩
  rw [mem_blk1]
  obtain ⟨-, -, -, -, -, -, -, -, e40, e41⟩ := idx_facts1 ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e40]
    show (i 0).val / 5000 * 5000 ≤ (i 0).val ∧ (i 0).val < (i 0).val / 5000 * 5000 + 5000
    omega
  | ⟨1, _⟩ =>
    show win1_4.index _ (1 : Fin 2) * 1 ≤ (i 1).val ∧ (i 1).val < win1_4.index _ (1 : Fin 2) * 1 + 1
    rw [e41]
    omega

/-- THE OUTPUT ARRAY of the second region, whatever the arrays `V` it finds: the output layer of the aggregated
    features, the scale column, the bias row and the weight column. -/
theorem region1_array (c : Dev nD) :
    (dat1 (F := Ideal) V c).arrAt 4 cfg1.N
      = clampedHeadArr (V c main_v34) (V c main_v20) (V c main_v35) (V c main_arg5) :=
  (dat1 (F := Ideal) V c).arrAt_eq_of_cover 4
    (clampedHeadArr (V c main_v34) (V c main_v20) (V c main_v35) (V c main_arg5))
    (fun t _ => flushed1 V c t) cover1

/-- The output array read at row `v`. -/
theorem region1_value (c : Dev nD) (v : Fin 100000) :
    ((dat1 (F := Ideal) V c).arrAt 4 cfg1.N : S100000x1.Idx → EReal) (ix2 v (0 : Fin 1))
      = clampedHead (V c main_v34) (V c main_v20) (V c main_v35) (V c main_arg5) v := by
  rw [region1_array V c]

end Cert.KernelIdeal.RegionValue

end
-- ==== Proof.Spec.lean ====
/-
  A two-layer graph convolution with symmetric normalisation, over the extended reals, in two arrangements.

  The graph has nodes `u, v : Fin N` and edges `e : Fin E` (self-loops included); edge `e` carries the message of node
  `src e` to the node whose number is `C e`, read as a signed integer: the edges LANDING at `v` are `hits v`, and an edge
  whose target number is outside the node range lands nowhere. `dst e` is the node at which the per-node scale is read
  for the target end of `e`; all that is used of it is `dst e = v` for `e ∈ hits v`. `W e` is the edge weight and `D u` the
  per-node scale (the inverse square root of the weighted in-degree).

  The reference arrangement scales every message on its EDGE by `norm e = D (src e) · W e · D (dst e)`:
    layer 1:  agg u j = ∑_{e ∈ hits u} norm e · (X·W1) (src e) j,   h u j = max (agg u j + B1 j) 0
    layer 2:  out v   = ∑_{e ∈ hits v} norm e · (h·W2) (src e) + B2.
  The kernel arrangement scales on the NODES: the source factor `D (src e)` is folded into the dense transform of the
  source node, and the target factor `D v` is applied once to the aggregated sum. The two agree because a finite sum
  of REAL numbers distributes over a real factor; on the extended reals that law fails at the infinities, so the
  statement assumes every entry of `D, W, X, W1, B1, W2` is a real number (neither `⊤` nor `⊥`). `B2` is arbitrary: it
  is added last on both sides.
-/
import Idealize.ShloMosaic.Lib.ValueIdx

noncomputable section

open scoped BigOperators

namespace Cert.GCN

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum of two reals. -/
theorem coe_max (a b : ℝ) : ((max a b : ℝ) : EReal) = max (a : EReal) (b : EReal) :=
  EReal.coe_strictMono.monotone.map_max

/-- THE LAW that joins the two arrangements, over the reals: a node factor `d` applied to the aggregated sum is the
    same factor applied on every edge that lands there (`Dd e = d` on `s`), the source factor moving from the message
    to the edge. -/
theorem node_scale_eq_edge_scale {ι : Type*} (s : Finset ι) (a Ds w Dd : ι → ℝ) (d : ℝ) (h : ∀ e ∈ s, Dd e = d) :
    (∑ e ∈ s, (a e * Ds e) * w e) * d = ∑ e ∈ s, ((Ds e * w e) * Dd e) * a e := by
  rw [Finset.sum_mul]
  refine Finset.sum_congr rfl fun e he => ?_
  rw [h e he]; ring

section Arrangements

variable {N E K J : ℕ}
variable (src dst : Fin E → Fin N) (hits : Fin N → Finset (Fin E))

/-- The dense transform of layer 1: `(X · W1) u j`. -/
def dense1 (X : Fin N → Fin K → EReal) (W1 : Fin K → Fin J → EReal) (u : Fin N) (j : Fin J) : EReal :=
  ∑ k : Fin K, X u k * W1 k j

/-! ### The kernel's arrangement -/

/-- Layer 1 aggregated at node `u`, before the target node's factor: the messages carry the source node's factor. -/
def kAgg1 (D : Fin N → EReal) (W : Fin E → EReal) (X : Fin N → Fin K → EReal) (W1 : Fin K → Fin J → EReal)
    (u : Fin N) (j : Fin J) : EReal :=
  0 + ∑ e ∈ hits u, (dense1 X W1 (src e) j * D (src e)) * W e

/-- The second dense transform at node `u`, with both node factors of `u`: the target factor of layer 1 inside the
    rectifier, the source factor of layer 2 outside. -/
def kDense2 (D : Fin N → EReal) (W : Fin E → EReal) (X : Fin N → Fin K → EReal) (W1 : Fin K → Fin J → EReal)
    (B1 : Fin J → EReal) (W2 : Fin J → EReal) (u : Fin N) : EReal :=
  (∑ j : Fin J, max (kAgg1 src hits D W X W1 u j * D u + B1 j) 0 * W2 j) * D u

/-- The kernel's result at node `v`. -/
def kOut (D : Fin N → EReal) (W : Fin E → EReal) (X : Fin N → Fin K → EReal) (W1 : Fin K → Fin J → EReal)
    (B1 : Fin J → EReal) (W2 : Fin J → EReal) (B2 : EReal) (v : Fin N) : EReal :=
  D v * (0 + ∑ e ∈ hits v, kDense2 src hits D W X W1 B1 W2 (src e) * W e) + B2

/-! ### The reference's arrangement -/

/-- The symmetric normalisation of edge `e`. -/
def norm (D : Fin N → EReal) (W : Fin E → EReal) (e : Fin E) : EReal := (D (src e) * W e) * D (dst e)

/-- Layer 1 aggregated at node `u`. -/
def rAgg1 (D : Fin N → EReal) (W : Fin E → EReal) (X : Fin N → Fin K → EReal) (W1 : Fin K → Fin J → EReal)
    (u : Fin N) (j : Fin J) : EReal :=
  0 + ∑ e ∈ hits u, norm src dst D W e * dense1 X W1 (src e) j

/-- The second dense transform at node `u`. -/
def rDense2 (D : Fin N → EReal) (W : Fin E → EReal) (X : Fin N → Fin K → EReal) (W1 : Fin K → Fin J → EReal)
    (B1 : Fin J → EReal) (W2 : Fin J → EReal) (u : Fin N) : EReal :=
  ∑ j : Fin J, max (rAgg1 src dst hits D W X W1 u j + B1 j) 0 * W2 j

/-- The reference's result at node `v`. -/
def rOut (D : Fin N → EReal) (W : Fin E → EReal) (X : Fin N → Fin K → EReal) (W1 : Fin K → Fin J → EReal)
    (B1 : Fin J → EReal) (W2 : Fin J → EReal) (B2 : EReal) (v : Fin N) : EReal :=
  (0 + ∑ e ∈ hits v, norm src dst D W e * rDense2 src dst hits D W X W1 B1 W2 (src e)) + B2

/-! ### They agree on real data -/

/-- On real data the two arrangements give the same result at every node: the law above, once per layer. -/
theorem kOut_eq_rOut (hdst : ∀ v, ∀ e ∈ hits v, dst e = v)
    (D : Fin N → EReal) (W : Fin E → EReal) (X : Fin N → Fin K → EReal) (W1 : Fin K → Fin J → EReal)
    (B1 : Fin J → EReal) (W2 : Fin J → EReal) (B2 : EReal)
    (hD : ∀ u, D u ≠ ⊤ ∧ D u ≠ ⊥) (hW : ∀ e, W e ≠ ⊤ ∧ W e ≠ ⊥) (hX : ∀ u k, X u k ≠ ⊤ ∧ X u k ≠ ⊥)
    (hW1 : ∀ k j, W1 k j ≠ ⊤ ∧ W1 k j ≠ ⊥) (hB1 : ∀ j, B1 j ≠ ⊤ ∧ B1 j ≠ ⊥) (hW2 : ∀ j, W2 j ≠ ⊤ ∧ W2 j ≠ ⊥) (v : Fin N) :
    kOut src hits D W X W1 B1 W2 B2 v = rOut src dst hits D W X W1 B1 W2 B2 v := by
  -- real witnesses of every entry
  choose d hd using fun u => (EReal.canLift.prf (D u) (hD u))
  choose w hw using fun e => (EReal.canLift.prf (W e) (hW e))
  choose x hx using fun u k => (EReal.canLift.prf (X u k) (hX u k))
  choose w1 hw1 using fun k j => (EReal.canLift.prf (W1 k j) (hW1 k j))
  choose b1 hb1 using fun j => (EReal.canLift.prf (B1 j) (hB1 j))
  choose w2 hw2 using fun j => (EReal.canLift.prf (W2 j) (hW2 j))
  -- the dense transform of layer 1 is real
  have hdense : ∀ u j, dense1 X W1 u j = ((∑ k : Fin K, x u k * w1 k j : ℝ) : EReal) := fun u j => by
    unfold dense1; rw [coe_sum]; refine Finset.sum_congr rfl fun k _ => ?_
    rw [← hx, ← hw1, EReal.coe_mul]
  -- layer 1: the kernel's aggregate times the node factor is the reference's aggregate
  have hagg : ∀ u j, kAgg1 src hits D W X W1 u j * D u = rAgg1 src dst hits D W X W1 u j := fun u j => by
    unfold kAgg1 rAgg1 norm
    rw [zero_add, zero_add]
    have e1 : (∑ e ∈ hits u, (dense1 X W1 (src e) j * D (src e)) * W e)
        = ((∑ e ∈ hits u, ((∑ k : Fin K, x (src e) k * w1 k j) * d (src e)) * w e : ℝ) : EReal) := by
      rw [coe_sum]; refine Finset.sum_congr rfl fun e _ => ?_
      rw [hdense, ← hd, ← hw, EReal.coe_mul, EReal.coe_mul]
    have e2 : (∑ e ∈ hits u, ((D (src e) * W e) * D (dst e)) * dense1 X W1 (src e) j)
        = ((∑ e ∈ hits u, ((d (src e) * w e) * d (dst e)) * (∑ k : Fin K, x (src e) k * w1 k j) : ℝ) : EReal) := by
      rw [coe_sum]; refine Finset.sum_congr rfl fun e _ => ?_
      rw [hdense, ← hd, ← hd, ← hw, EReal.coe_mul, EReal.coe_mul, EReal.coe_mul]
    rw [e1, e2, ← hd u, ← EReal.coe_mul]
    exact congrArg _ (node_scale_eq_edge_scale (hits u) _ _ _ (fun e => d (dst e)) (d u) fun e he => by rw [hdst u e he])
  -- the reference's aggregate is real, so is its second dense transform
  have hragg : ∀ u j, ∃ r : ℝ, rAgg1 src dst hits D W X W1 u j = (r : EReal) := fun u j => by
    refine ⟨∑ e ∈ hits u, ((d (src e) * w e) * d (dst e)) * (∑ k : Fin K, x (src e) k * w1 k j), ?_⟩
    unfold rAgg1 norm
    rw [zero_add, coe_sum]; refine Finset.sum_congr rfl fun e _ => ?_
    rw [hdense, ← hd, ← hd, ← hw, EReal.coe_mul, EReal.coe_mul, EReal.coe_mul]
  choose ra hra using hragg
  have hrd : ∀ u, rDense2 src dst hits D W X W1 B1 W2 u = ((∑ j : Fin J, max (ra u j + b1 j) 0 * w2 j : ℝ) : EReal) := fun u => by
    unfold rDense2; rw [coe_sum]; refine Finset.sum_congr rfl fun j _ => ?_
    rw [hra, ← hb1, ← hw2, EReal.coe_mul, coe_max, EReal.coe_add, EReal.coe_zero]
  have hkd : ∀ u, kDense2 src hits D W X W1 B1 W2 u = rDense2 src dst hits D W X W1 B1 W2 u * D u := fun u => by
    unfold kDense2 rDense2
    refine congrArg (· * D u) (Finset.sum_congr rfl fun j _ => ?_)
    rw [hagg]
  -- layer 2: the same law
  unfold kOut rOut norm
  refine congrArg (· + B2) ?_
  rw [zero_add, zero_add]
  have e1 : (∑ e ∈ hits v, kDense2 src hits D W X W1 B1 W2 (src e) * W e)
      = ((∑ e ∈ hits v, ((∑ j : Fin J, max (ra (src e) j + b1 j) 0 * w2 j) * d (src e)) * w e : ℝ) : EReal) := by
    rw [coe_sum]; refine Finset.sum_congr rfl fun e _ => ?_
    rw [hkd, hrd, ← hd, ← hw, EReal.coe_mul, EReal.coe_mul]
  have e2 : (∑ e ∈ hits v, ((D (src e) * W e) * D (dst e)) * rDense2 src dst hits D W X W1 B1 W2 (src e))
      = ((∑ e ∈ hits v, ((d (src e) * w e) * d (dst e)) * (∑ j : Fin J, max (ra (src e) j + b1 j) 0 * w2 j) : ℝ) : EReal) := by
    rw [coe_sum]; refine Finset.sum_congr rfl fun e _ => ?_
    rw [hrd, ← hd, ← hd, ← hw, EReal.coe_mul, EReal.coe_mul, EReal.coe_mul]
  rw [e1, e2, ← hd v, ← EReal.coe_mul, mul_comm]
  exact congrArg _ (node_scale_eq_edge_scale (hits v) _ _ _ (fun e => d (dst e)) (d v) fun e he => by rw [hdst v e he])

end Arrangements

end Cert.GCN

end
-- ==== Proof.KernelChain.lean ====
/-
  The idealized kernel's result, node by node, is the node-scaled arrangement of the two-layer graph convolution.

  The fold of @main's segments is read backwards from the result: the last stretch over the second dense transform's
  column; that column, twenty blocks of 5000 nodes written by the second region, is one function of the aggregate the
  middle stretch leaves; the aggregate gathers the first region's rows, which are one function of the inputs and the
  node scale. The edge list, the edge weights and the node scale are the contents the first region is entered with.
-/
import proofs.«168969_j29274497089560_2_alg».proof.Proof.KernelRun
import proofs.«168969_j29274497089560_2_alg».proof.Proof.KernelStages
import proofs.«168969_j29274497089560_2_alg».proof.Proof.Region0
import proofs.«168969_j29274497089560_2_alg».proof.Proof.Region1
import proofs.«168969_j29274497089560_2_alg».proof.Proof.Spec

set_option maxRecDepth 16384

noncomputable section

open scoped BigOperators

namespace Cert.KernelIdeal.Chain

open Cert.KernelIdeal Cert.KernelIdeal.Gen Cert.KernelIdeal.Stages Cert.KernelIdeal.RegionValue
open Idealize.ShloMosaic Idealize.ShloMosaic.TcCoe Idealize.ShloMosaic.StableHlo Idealize.SL.Sem
open Idealize.ShloMosaic.ValueIdx Cert.GCN

variable (m : (ℓ : Loc nD τ sig) → Buf (Elt Ideal) ℓ) (ρ : Dev nD → PrngReg)

set_option maxHeartbeats 4000000 in
/-- The middle stretch leaves the edge list, the weights, the node scale and the second layer's parameters as they were. -/
theorem mid_keeps (Wv : Valuation τ sig (Elt Ideal)) :
    StableHlo.after (hostOps1 (F := Ideal)) Wv (Proc.devRef .tc main_v20) = Wv (Proc.devRef .tc main_v20)
    ∧ StableHlo.after (hostOps1 (F := Ideal)) Wv (Proc.devRef .tc main_v6) = Wv (Proc.devRef .tc main_v6)
    ∧ StableHlo.after (hostOps1 (F := Ideal)) Wv (Proc.devRef .tc main_v3) = Wv (Proc.devRef .tc main_v3)
    ∧ StableHlo.after (hostOps1 (F := Ideal)) Wv (Proc.devRef .tc main_v9) = Wv (Proc.devRef .tc main_v9)
    ∧ StableHlo.after (hostOps1 (F := Ideal)) Wv (Proc.devRef .tc main_arg5) = Wv (Proc.devRef .tc main_arg5)
    ∧ StableHlo.after (hostOps1 (F := Ideal)) Wv (Proc.devRef .tc main_arg6) = Wv (Proc.devRef .tc main_arg6) := by
  refine ⟨?_, ?_, ?_, ?_, ?_, ?_⟩ <;> after_results_simp

/-! What the last stretch is entered with, at the buffers it reads, in terms of the first region's entry contents. -/

/-- The node scale is an input window of both regions: a region leaves its input arrays as it found them. -/
theorem W6_v20 (c : Dev nD) : W6 m ρ c (Proc.devRef .tc main_v20) = W5 m ρ c (Proc.devRef .tc main_v20) :=
  (W6_arr m ρ c 2).trans (((dat0 (V5 m ρ) c).arrAt_in 2 rfl _).trans (A_eq0 (V5 m ρ) c 2))
theorem W7_v20 (c : Dev nD) : W7 m ρ c (Proc.devRef .tc main_v20) = W5 m ρ c (Proc.devRef .tc main_v20) :=
  ((mid_keeps (W6 m ρ c)).1).trans (W6_v20 m ρ c)
theorem W8_v20 (c : Dev nD) : W8 m ρ c (Proc.devRef .tc main_v20) = W5 m ρ c (Proc.devRef .tc main_v20) :=
  ((W8_arr m ρ c 1).trans (((dat1 (V7 m ρ) c).arrAt_in 1 rfl _).trans (A_eq1 (V7 m ρ) c 1))).trans (W7_v20 m ρ c)
theorem W8_v6 (c : Dev nD) : W8 m ρ c (Proc.devRef .tc main_v6) = W5 m ρ c (Proc.devRef .tc main_v6) :=
  (W8_of_ne m ρ c main_v6 (by decide)).trans (((mid_keeps (W6 m ρ c)).2.1).trans (W6_of_ne m ρ c main_v6 (by decide)))
theorem W8_v3 (c : Dev nD) : W8 m ρ c (Proc.devRef .tc main_v3) = W5 m ρ c (Proc.devRef .tc main_v3) :=
  (W8_of_ne m ρ c main_v3 (by decide)).trans (((mid_keeps (W6 m ρ c)).2.2.1).trans (W6_of_ne m ρ c main_v3 (by decide)))
theorem W8_v9 (c : Dev nD) : W8 m ρ c (Proc.devRef .tc main_v9) = W5 m ρ c (Proc.devRef .tc main_v9) :=
  (W8_of_ne m ρ c main_v9 (by decide)).trans (((mid_keeps (W6 m ρ c)).2.2.2.1).trans (W6_of_ne m ρ c main_v9 (by decide)))
theorem W8_arg6 (c : Dev nD) : W8 m ρ c (Proc.devRef .tc main_arg6) = W5 m ρ c (Proc.devRef .tc main_arg6) :=
  (W8_of_ne m ρ c main_arg6 (by decide)).trans (((mid_keeps (W6 m ρ c)).2.2.2.2.2).trans (W6_of_ne m ρ c main_arg6 (by decide)))
theorem W7_arg5 (c : Dev nD) : W7 m ρ c (Proc.devRef .tc main_arg5) = W5 m ρ c (Proc.devRef .tc main_arg5) :=
  ((mid_keeps (W6 m ρ c)).2.2.2.2.1).trans (W6_of_ne m ρ c main_arg5 (by decide))

/-- The second region's output column is the second dense transform of what the middle stretch leaves. -/
theorem W8_v36 (c : Dev nD) :
    W8 m ρ c (Proc.devRef .tc main_v36)
      = clampedHeadArr (V7 m ρ c main_v34) (V7 m ρ c main_v20) (V7 m ρ c main_v35) (V7 m ρ c main_arg5) :=
  (W8_arr m ρ c 4).trans (region1_array (V7 m ρ) c)

/-- The first region's output rows are the first dense transform, scaled by the node factor. -/
theorem W6_v21 (c : Dev nD) :
    W6 m ρ c (Proc.devRef .tc main_v21)
      = scaledProductArr (V5 m ρ c main_arg0) (V5 m ρ c main_arg3) (V5 m ρ c main_v20) :=
  (W6_arr m ρ c 3).trans (region0_array (V5 m ρ) c)

/-- An array of extended reals read at an index. -/
abbrev rd {S : Shape} (f : S.Idx → EReal) (i : S.Idx) : EReal := f i

/-! ## The contents the first region is entered with, as the specification's data -/

/-- The edges' source numbers. -/
abbrev R5 (c : Dev nD) : IVec S3300000 32 := W5 m ρ c (Proc.devRef .tc main_v3)
/-- The edges' target numbers. -/
abbrev C5 (c : Dev nD) : IVec S3300000 32 := W5 m ρ c (Proc.devRef .tc main_v6)
/-- The per-node scale. -/
abbrev D5 (c : Dev nD) : Fin 100000 → EReal := fun u => rd (S := S100000x1) (W5 m ρ c (Proc.devRef .tc main_v20)) (ix2 u (0 : Fin 1))
/-- The edge weights. -/
abbrev E5 (c : Dev nD) : Fin 3300000 → EReal := fun e => rd (S := S3300000x1) (W5 m ρ c (Proc.devRef .tc main_v9)) (ix2 e (0 : Fin 1))
/-- The node features. -/
abbrev X5 (c : Dev nD) : Fin 100000 → Fin 128 → EReal := fun u k => rd (S := S100000x128) (W5 m ρ c (Proc.devRef .tc main_arg0)) (ix2 u k)
/-- The first layer's weights. -/
abbrev W15 (c : Dev nD) : Fin 128 → Fin 64 → EReal := fun k j => rd (S := S128x64) (W5 m ρ c (Proc.devRef .tc main_arg3)) (ix2 k j)
/-- The first layer's bias. -/
abbrev B15 (c : Dev nD) : Fin 64 → EReal := fun j => rd (S := S64) (W5 m ρ c (Proc.devRef .tc main_arg4)) (ix1 j)
/-- The second layer's weights. -/
abbrev W25 (c : Dev nD) : Fin 64 → EReal := fun j => rd (S := S64x1) (W5 m ρ c (Proc.devRef .tc main_arg5)) (ix2 j (0 : Fin 1))
/-- The second layer's bias. -/
abbrev B25 (c : Dev nD) : EReal := rd (S := S1) (W5 m ρ c (Proc.devRef .tc main_arg6)) (ix1 (0 : Fin 1))

/-- The aggregate the second region reads is the first layer aggregated with the source factors on the messages. -/
theorem agg_eq (c : Dev nD) (u : Fin 100000) (j : Fin 64) :
    rd (S := S100000x64) (W7 m ρ c (Proc.devRef .tc main_v34)) (ix2 u j)
      = kAgg1 (nodeOf (R5 m ρ c)) (hitsOf (C5 m ρ c)) (D5 m ρ c) (E5 m ρ c) (X5 m ρ c) (W15 m ρ c) u j := by
  refine (mid_apply (W6 m ρ c) u j).trans ?_
  rw [W6_of_ne m ρ c main_v6 (by decide), W6_of_ne m ρ c main_v3 (by decide), W6_of_ne m ρ c main_v9 (by decide),
    W6_v21]
  rfl

/-- The bias row the second region reads is the first layer's bias. -/
theorem bias_eq (c : Dev nD) (j : Fin 64) :
    rd (S := S1x64) (W7 m ρ c (Proc.devRef .tc main_v35)) (ix2 (0 : Fin 1) j) = B15 m ρ c j := by
  refine (mid_bias_apply (W6 m ρ c) j).trans ?_
  rw [W6_of_ne m ρ c main_arg4 (by decide)]

/-- The second region's output column is the second dense transform with both node factors. -/
theorem head_eq (c : Dev nD) (u : Fin 100000) :
    rd (S := S100000x1) (W8 m ρ c (Proc.devRef .tc main_v36)) (ix2 u (0 : Fin 1))
      = kDense2 (nodeOf (R5 m ρ c)) (hitsOf (C5 m ρ c)) (D5 m ρ c) (E5 m ρ c) (X5 m ρ c) (W15 m ρ c) (B15 m ρ c)
          (W25 m ρ c) u := by
  show rd (S := S100000x1) (W8 m ρ c (Proc.devRef .tc main_v36)) (ix2 u (0 : Fin 1)) = _
  rw [W8_v36]
  show clampedHead (W7 m ρ c (Proc.devRef .tc main_v34)) (W7 m ρ c (Proc.devRef .tc main_v20))
      (W7 m ρ c (Proc.devRef .tc main_v35)) (W7 m ρ c (Proc.devRef .tc main_arg5)) u = _
  rw [W7_v20, W7_arg5, clampedHead_apply]
  unfold kDense2
  have hsum : (∑ j : Fin 64, max (rd (S := S100000x64) (W7 m ρ c (Proc.devRef .tc main_v34)) (ix2 u j) * D5 m ρ c u
          + rd (S := S1x64) (W7 m ρ c (Proc.devRef .tc main_v35)) (ix2 (0 : Fin 1) j)) 0 * W25 m ρ c j)
      = ∑ j : Fin 64, max (kAgg1 (nodeOf (R5 m ρ c)) (hitsOf (C5 m ρ c)) (D5 m ρ c) (E5 m ρ c) (X5 m ρ c) (W15 m ρ c) u j
          * D5 m ρ c u + B15 m ρ c j) 0 * W25 m ρ c j :=
    Finset.sum_congr rfl fun j _ => by rw [agg_eq, bias_eq]
  exact congrArg (fun s : EReal => s * D5 m ρ c u) hsum

/-- THE KERNEL'S RESULT at node `v` is the node-scaled arrangement of the data the first region is entered with. -/
theorem result_eq (c : Dev nD) (v : Fin 100000) :
    rd (S := S100000x1) (W9 (F := Ideal) m ρ c (Proc.devRef .tc main_v51)) (ix2 v (0 : Fin 1))
      = kOut (nodeOf (R5 m ρ c)) (hitsOf (C5 m ρ c)) (D5 m ρ c) (E5 m ρ c) (X5 m ρ c) (W15 m ρ c) (B15 m ρ c)
          (W25 m ρ c) (B25 m ρ c) v := by
  refine (tail_apply (W8 m ρ c) v).trans ?_
  rw [W8_v20, W8_v6, W8_v3, W8_v9, W8_arg6]
  unfold tailVal kOut
  have hsum : (∑ e ∈ hitsOf (C5 m ρ c) v,
        rd (S := S100000x1) (W8 m ρ c (Proc.devRef .tc main_v36)) (ix2 (nodeOf (R5 m ρ c) e) (0 : Fin 1)) * E5 m ρ c e)
      = ∑ e ∈ hitsOf (C5 m ρ c) v,
        kDense2 (nodeOf (R5 m ρ c)) (hitsOf (C5 m ρ c)) (D5 m ρ c) (E5 m ρ c) (X5 m ρ c) (W15 m ρ c) (B15 m ρ c)
          (W25 m ρ c) (nodeOf (R5 m ρ c) e) * E5 m ρ c e :=
    Finset.sum_congr rfl fun e _ => by rw [head_eq]
  exact congrArg (fun s : EReal => D5 m ρ c v * (0 + s) + B25 m ρ c) hsum

end Cert.KernelIdeal.Chain

end
-- ==== Proof.KernelTerms.lean ====
/-
  The arrays the kernel's first host stretches build before its first dense transform, as functions of the inputs:
  the edges' source and target numbers with the self-loops appended (a row of the edge list, flattened, followed by
  0, 1, …, N − 1), the edge weights followed by N ones, and the per-node scale — the weighted in-degree accumulated at
  the target numbers, its inverse square root where the degree is positive, zero elsewhere.
-/
import proofs.«168969_j29274497089560_2_alg».proof.KernelIdeal
import proofs.«168969_j29274497089560_2_alg».proof.Proof.Gen.KernelIdeal
import Idealize.ShloMosaic.PureOps.Ideal

noncomputable section

namespace Cert.KernelIdeal.Terms

open Cert.KernelIdeal Cert.KernelIdeal.Gen Idealize.ShloMosaic

/-- The source numbers: row 0 of the edge list, then the nodes' own numbers. -/
def rowK (x1 : IVec S2x3200000 32) : IVec S3300000 32 :=
  concatenate S3300000 0
    [⟨S3200000, shapeCast S3200000 (extractStridedSlice S1x3200000 ![0, 0] x1 slices_S2x3200000_S1x3200000_0_0)
        shapeCasts_S1x3200000_S3200000⟩,
      ⟨S100000, iotaInDim S100000 32 0⟩] concatenates_S3200000_S100000_S3300000_d0

/-- The target numbers: row 1 of the edge list, then the nodes' own numbers. -/
def colK (x1 : IVec S2x3200000 32) : IVec S3300000 32 :=
  concatenate S3300000 0
    [⟨S3200000, shapeCast S3200000 (extractStridedSlice S1x3200000 ![1, 0] x1 slices_S2x3200000_S1x3200000_1_0)
        shapeCasts_S1x3200000_S3200000⟩,
      ⟨S100000, iotaInDim S100000 32 0⟩] concatenates_S3200000_S100000_S3300000_d0

/-- The edge weights, then a one for every self-loop. -/
def weightK (x2 : FVec Ideal S3200000 .f32) : FVec Ideal S3300000 .f32 :=
  concatenate S3300000 0
    [⟨S3200000, x2⟩, ⟨S100000, broadcastInDim S100000 ![] bcast_S_S100000 (constant (F := Ideal) S_ .f32 0x3F800000#32)⟩]
    concatenates_S3200000_S100000_S3300000_d0

/-- The weighted in-degree: the weights accumulated at the target numbers. -/
def degK (C : IVec S3300000 32) (W : FVec Ideal S3300000 .f32) : FVec Ideal S100000 .f32 :=
  Host.scatterAdd scatter_S100000_S3300000x1_S3300000_n_0_0_1
    (broadcastInDim S100000 ![] bcast_S_S100000 (constant (F := Ideal) S_ .f32 0x00000000#32))
    (broadcastInDim S3300000x1 ![0] bcast_S3300000_S3300000x1_0 C) W

/-- The per-node scale: the inverse square root of the degree where it is positive (of one elsewhere, unused), and
    zero where it is not. -/
def scaleK (C : IVec S3300000 32) (W : FVec Ideal S3300000 .f32) : FVec Ideal S100000 .f32 :=
  select (cmpf .ogt (degK C W) (broadcastInDim S100000 ![] bcast_S_S100000 (constant (F := Ideal) S_ .f32 0x00000000#32)))
    (Host.rsqrt
      (select (cmpf .ogt (degK C W) (broadcastInDim S100000 ![] bcast_S_S100000 (constant (F := Ideal) S_ .f32 0x00000000#32)))
        (degK C W)
        (broadcastInDim S100000 ![] bcast_S_S100000 (id (constant (F := Ideal) S_ .f32 0x3F800000#32)))))
    (broadcastInDim S100000 ![] bcast_S_S100000 (id (constant (F := Ideal) S_ .f32 0x00000000#32)))

end Cert.KernelIdeal.Terms

end
-- ==== Proof.KernelPrefix.lean ====
/-
  The five host stretches before the first dense transform, from ANY launch contents: the source numbers, the target
  numbers and the edge weights as a column are the terms of the inputs named in the terms module, and the stretches
  leave the float inputs of the two transforms as they were.
-/
import proofs.«168969_j29274497089560_2_alg».proof.Proof.Gen.KernelIdeal.Launch
import proofs.«168969_j29274497089560_2_alg».proof.Proof.KernelTerms
import Idealize.ShloMosaic.Lib.StableHlo.Run
import Idealize.ShloMosaic.PureOps.Ideal

noncomputable section

namespace Cert.KernelIdeal.Prefix

open Cert.KernelIdeal Cert.KernelIdeal.Gen Cert.KernelIdeal.Terms
open Idealize.ShloMosaic Idealize.ShloMosaic.TcCoe Idealize.ShloMosaic.StableHlo

set_option maxHeartbeats 0 in
/-- The source numbers. -/
theorem pre_v3 (Wv : Valuation τ sig (Elt Ideal)) :
    StableHlo.after (hostOps0_4 (F := Ideal)) (StableHlo.after hostOps0_3 (StableHlo.after hostOps0_2 (StableHlo.after hostOps0_1 (StableHlo.after hostOps0 Wv)))) (Proc.devRef .tc main_v3) = rowK (Wv (Proc.devRef .tc main_arg1)) := by
  after_results
  rfl

set_option maxHeartbeats 0 in
/-- The target numbers. -/
theorem pre_v6 (Wv : Valuation τ sig (Elt Ideal)) :
    StableHlo.after (hostOps0_4 (F := Ideal)) (StableHlo.after hostOps0_3 (StableHlo.after hostOps0_2 (StableHlo.after hostOps0_1 (StableHlo.after hostOps0 Wv)))) (Proc.devRef .tc main_v6) = colK (Wv (Proc.devRef .tc main_arg1)) := by
  after_results
  rfl

set_option maxHeartbeats 0 in
/-- The edge weights, as a column. -/
theorem pre_v9 (Wv : Valuation τ sig (Elt Ideal)) :
    StableHlo.after (hostOps0_4 (F := Ideal)) (StableHlo.after hostOps0_3 (StableHlo.after hostOps0_2 (StableHlo.after hostOps0_1 (StableHlo.after hostOps0 Wv)))) (Proc.devRef .tc main_v9)
      = shapeCast S3300000x1 (weightK (Wv (Proc.devRef .tc main_arg2))) shapeCasts_S3300000_S3300000x1 := by
  after_results
  rfl

set_option maxHeartbeats 0 in
/-- The float inputs the two dense transforms and the last stretch read are not written. -/
theorem pre_args (Wv : Valuation τ sig (Elt Ideal)) :
    StableHlo.after (hostOps0_4 (F := Ideal)) (StableHlo.after hostOps0_3 (StableHlo.after hostOps0_2 (StableHlo.after hostOps0_1 (StableHlo.after hostOps0 Wv)))) (Proc.devRef .tc main_arg0) = Wv (Proc.devRef .tc main_arg0)
    ∧ StableHlo.after (hostOps0_4 (F := Ideal)) (StableHlo.after hostOps0_3 (StableHlo.after hostOps0_2 (StableHlo.after hostOps0_1 (StableHlo.after hostOps0 Wv)))) (Proc.devRef .tc main_arg3) = Wv (Proc.devRef .tc main_arg3)
    ∧ StableHlo.after (hostOps0_4 (F := Ideal)) (StableHlo.after hostOps0_3 (StableHlo.after hostOps0_2 (StableHlo.after hostOps0_1 (StableHlo.after hostOps0 Wv)))) (Proc.devRef .tc main_arg4) = Wv (Proc.devRef .tc main_arg4)
    ∧ StableHlo.after (hostOps0_4 (F := Ideal)) (StableHlo.after hostOps0_3 (StableHlo.after hostOps0_2 (StableHlo.after hostOps0_1 (StableHlo.after hostOps0 Wv)))) (Proc.devRef .tc main_arg5) = Wv (Proc.devRef .tc main_arg5)
    ∧ StableHlo.after (hostOps0_4 (F := Ideal)) (StableHlo.after hostOps0_3 (StableHlo.after hostOps0_2 (StableHlo.after hostOps0_1 (StableHlo.after hostOps0 Wv)))) (Proc.devRef .tc main_arg6) = Wv (Proc.devRef .tc main_arg6) := by
  refine ⟨?_, ?_, ?_, ?_, ?_⟩ <;> after_results_simp

end Cert.KernelIdeal.Prefix

end
-- ==== Proof.KernelPrefixScale.lean ====
/-
  The five host stretches before the first dense transform, from ANY launch contents, leave in the scale buffer the
  per-node scale of the target numbers and weights, as a column: the weighted in-degree, its comparison with zero, the
  guarded inverse square root, and the final select, one stretch at a time.
-/
import proofs.«168969_j29274497089560_2_alg».proof.Proof.Gen.KernelIdeal.Launch
import proofs.«168969_j29274497089560_2_alg».proof.Proof.KernelTerms
import Idealize.ShloMosaic.Lib.StableHlo.Run
import Idealize.ShloMosaic.PureOps.Ideal

noncomputable section

namespace Cert.KernelIdeal.PrefixScale

open Cert.KernelIdeal Cert.KernelIdeal.Gen Cert.KernelIdeal.Terms
open Idealize.ShloMosaic Idealize.ShloMosaic.TcCoe Idealize.ShloMosaic.StableHlo

set_option maxHeartbeats 0 in
/-- First stretch: the weighted in-degree. -/
theorem s0_v12 (Wv : Valuation τ sig (Elt Ideal)) :
    StableHlo.after (hostOps0 (F := Ideal)) Wv (Proc.devRef .tc main_v12)
      = degK (colK (Wv (Proc.devRef .tc main_arg1))) (weightK (Wv (Proc.devRef .tc main_arg2))) := by
  after_results
  rfl

set_option maxHeartbeats 0 in
/-- First stretch: where the degree is positive. -/
theorem s0_v14 (Wv : Valuation τ sig (Elt Ideal)) :
    StableHlo.after (hostOps0 (F := Ideal)) Wv (Proc.devRef .tc main_v14)
      = cmpf .ogt (degK (colK (Wv (Proc.devRef .tc main_arg1))) (weightK (Wv (Proc.devRef .tc main_arg2))))
          (broadcastInDim S100000 ![] bcast_S_S100000 (constant (F := Ideal) S_ .f32 0x00000000#32)) := by
  after_results
  rfl

set_option maxHeartbeats 0 in
/-- First stretch: the literal one. -/
theorem s0_cst2 (Wv : Valuation τ sig (Elt Ideal)) :
    StableHlo.after (hostOps0 (F := Ideal)) Wv (Proc.devRef .tc main_cst_2) = constant (F := Ideal) S_ .f32 0x3F800000#32 := by
  after_results

set_option maxHeartbeats 0 in
/-- Second stretch: the degree where it is positive, one elsewhere. -/
theorem s1_v15 (Wv : Valuation τ sig (Elt Ideal)) :
    StableHlo.after (hostOps0_1 (F := Ideal)) Wv (Proc.devRef .tc main_v15)
      = select (Wv (Proc.devRef .tc main_v14)) (Wv (Proc.devRef .tc main_v12))
          (broadcastInDim S100000 ![] bcast_S_S100000 (id (Wv (Proc.devRef .tc main_cst_2)))) := by
  after_results
  rfl

set_option maxHeartbeats 0 in
/-- Second stretch: the degree is kept. -/
theorem s1_v12 (Wv : Valuation τ sig (Elt Ideal)) :
    StableHlo.after (hostOps0_1 (F := Ideal)) Wv (Proc.devRef .tc main_v12) = Wv (Proc.devRef .tc main_v12) := by
  after_results

set_option maxHeartbeats 0 in
/-- Third stretch: the comparison again, the inverse square root, the literal zero. -/
theorem s2_v17 (Wv : Valuation τ sig (Elt Ideal)) :
    StableHlo.after (hostOps0_2 (F := Ideal)) Wv (Proc.devRef .tc main_v17)
      = cmpf .ogt (Wv (Proc.devRef .tc main_v12))
          (broadcastInDim S100000 ![] bcast_S_S100000 (constant (F := Ideal) S_ .f32 0x00000000#32)) := by
  after_results

set_option maxHeartbeats 0 in
theorem s2_v18 (Wv : Valuation τ sig (Elt Ideal)) :
    StableHlo.after (hostOps0_2 (F := Ideal)) Wv (Proc.devRef .tc main_v18)
      = (Host.rsqrt (Wv (Proc.devRef .tc main_v15) : FVec Ideal S100000 .f32) : FVec Ideal S100000 .f32) := by
  after_results

set_option maxHeartbeats 0 in
theorem s2_cst4 (Wv : Valuation τ sig (Elt Ideal)) :
    StableHlo.after (hostOps0_2 (F := Ideal)) Wv (Proc.devRef .tc main_cst_4) = constant (F := Ideal) S_ .f32 0x00000000#32 := by
  after_results

set_option maxHeartbeats 0 in
/-- Fourth stretch: the scale where the degree is positive, zero elsewhere. -/
theorem s3_v19 (Wv : Valuation τ sig (Elt Ideal)) :
    StableHlo.after (hostOps0_3 (F := Ideal)) Wv (Proc.devRef .tc main_v19)
      = select (Wv (Proc.devRef .tc main_v17)) (Wv (Proc.devRef .tc main_v18))
          (broadcastInDim S100000 ![] bcast_S_S100000 (id (Wv (Proc.devRef .tc main_cst_4)))) := by
  after_results
  rfl

set_option maxHeartbeats 0 in
/-- Fifth stretch: laid as a column. -/
theorem s4_v20 (Wv : Valuation τ sig (Elt Ideal)) :
    StableHlo.after (hostOps0_4 (F := Ideal)) Wv (Proc.devRef .tc main_v20)
      = shapeCast S100000x1 (Wv (Proc.devRef .tc main_v19)) shapeCasts_S100000_S100000x1 := by
  after_results
  rfl

/-- The per-node scale, as a column. -/
theorem pre_v20 (Wv : Valuation τ sig (Elt Ideal)) :
    StableHlo.after (hostOps0_4 (F := Ideal)) (StableHlo.after hostOps0_3 (StableHlo.after hostOps0_2 (StableHlo.after hostOps0_1 (StableHlo.after hostOps0 Wv)))) (Proc.devRef .tc main_v20)
      = shapeCast S100000x1 (scaleK (colK (Wv (Proc.devRef .tc main_arg1))) (weightK (Wv (Proc.devRef .tc main_arg2))))
          shapeCasts_S100000_S100000x1 := by
  rw [s4_v20, s3_v19, s2_v17, s2_v18, s2_cst4, s1_v12, s1_v15, s0_v12, s0_v14, s0_cst2]
  rfl

end Cert.KernelIdeal.PrefixScale

end
-- ==== Proof.LibConcatRead.lean ====
/-
  A two-operand `concatenate` read at an index, in the three arrangements a flat or two-row array is assembled in.

  Laying two arrays end to end along an axis, the result at a position below the first array's extent on that axis
  is the first array there; at a position at or past it, the second array at the position less that extent. The
  other coordinates are unchanged. The three forms: two flat arrays `[A] ++ [B]`; two single-row matrices stacked
  into a two-row matrix `[1, M] ++ [1, M]` along the rows; two matrices of equally many rows joined along the columns
  `[R, A] ++ [R, B]`. In each the result's extent on the joined axis is a variable `T`; that it is the sum of the two
  operands' extents is part of the hypothesis `h`.
-/
import Idealize.ShloMosaic.Lib.ValueIdx
import Idealize.ShloMosaic.Lib.Pipeline.Value

noncomputable section

namespace Cert.LibConcatRead

open Idealize.ShloMosaic Idealize.ShloMosaic.ValueIdx

variable {α : Type}

/-! ## Two flat arrays: `[A] ++ [B] → [T]` -/

/-- The result's extent is the sum of the two operands' extents. -/
theorem concat_vec_total {A B T : Nat} (h : Shape.Concatenates [⟨1, ![A]⟩, ⟨1, ![B]⟩] ⟨1, ![T]⟩ 0) : A + B = T := by
  have e : A + (B + 0) = T := h.2.2
  omega

/-- Below the first array's extent the concatenation is the first array. -/
theorem concat_vec_apply_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) (he : e.val < A) :
    concatenate ⟨1, ![T]⟩ 0 [⟨⟨1, ![A]⟩, x₁⟩, ⟨⟨1, ![B]⟩, x₂⟩] h (ix1 e) = x₁ (ix1 ⟨e.val, he⟩) := by
  refine concatenate_pair_apply_left 0 x₁ x₂ h (ix1 e) rfl (ix1 ⟨e.val, he⟩) ?_
  intro b
  match b with
  | ⟨0, _⟩ => rfl

/-- At or past the first array's extent the concatenation is the second array, that extent less. -/
theorem concat_vec_apply_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) (he : A ≤ e.val) (hB : e.val - A < B) :
    concatenate ⟨1, ![T]⟩ 0 [⟨⟨1, ![A]⟩, x₁⟩, ⟨⟨1, ![B]⟩, x₂⟩] h (ix1 e) = x₂ (ix1 ⟨e.val - A, hB⟩) := by
  refine concatenate_pair_apply_right 0 x₁ x₂ h (ix1 e) rfl rfl (ix1 ⟨e.val - A, hB⟩) ?_ ?_
  · intro b hb
    match b with
    | ⟨0, _⟩ => exact absurd rfl hb
  · show e.val - A + A = e.val
    omega

/-- The concatenation of two flat arrays at `e`: the first at `e` when `e < A`, else the second at `e − A`. -/
theorem concat_vec_apply {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) :
    concatenate ⟨1, ![T]⟩ 0 [⟨⟨1, ![A]⟩, x₁⟩, ⟨⟨1, ![B]⟩, x₂⟩] h (ix1 e)
      = if he : e.val < A then x₁ (ix1 ⟨e.val, he⟩)
        else x₂ (ix1 ⟨e.val - A, by have := concat_vec_total h; have := e.isLt; omega⟩) := by
  by_cases he : e.val < A
  · rw [dif_pos he]; exact concat_vec_apply_left x₁ x₂ h e he
  · rw [dif_neg he]; exact concat_vec_apply_right x₁ x₂ h e (by omega) _

/-! ## Two single-row matrices stacked: `[1, M] ++ [1, M] → [2, M]` along the rows -/

/-- Row `0` of the stack is the first matrix's only row. -/
theorem concat_rows_apply_zero {M : Nat} (x₁ x₂ : (⟨2, ![1, M]⟩ : Shape).Idx → α)
    (h : Shape.Concatenates [⟨2, ![1, M]⟩, ⟨2, ![1, M]⟩] ⟨2, ![2, M]⟩ 0) (m : Fin M) :
    concatenate ⟨2, ![2, M]⟩ 0 [⟨⟨2, ![1, M]⟩, x₁⟩, ⟨⟨2, ![1, M]⟩, x₂⟩] h (ix2 0 m) = x₁ (ix2 0 m) := by
  refine concatenate_pair_apply_left 0 x₁ x₂ h (ix2 0 m) rfl (ix2 0 m) ?_
  intro b
  match b with
  | ⟨0, _⟩ => rfl
  | ⟨1, _⟩ => rfl

/-- Row `1` of the stack is the second matrix's only row. -/
theorem concat_rows_apply_one {M : Nat} (x₁ x₂ : (⟨2, ![1, M]⟩ : Shape).Idx → α)
    (h : Shape.Concatenates [⟨2, ![1, M]⟩, ⟨2, ![1, M]⟩] ⟨2, ![2, M]⟩ 0) (m : Fin M) :
    concatenate ⟨2, ![2, M]⟩ 0 [⟨⟨2, ![1, M]⟩, x₁⟩, ⟨⟨2, ![1, M]⟩, x₂⟩] h (ix2 1 m) = x₂ (ix2 0 m) := by
  refine concatenate_pair_apply_right 0 x₁ x₂ h (ix2 1 m) rfl rfl (ix2 0 m) ?_ ?_
  · intro b hb
    match b with
    | ⟨0, _⟩ => exact absurd rfl hb
    | ⟨1, _⟩ => rfl
  · rfl

/-- The stack at `(r, m)`: the first matrix at `(0, m)` when `r = 0`, the second at `(0, m)` when `r = 1`. -/
theorem concat_rows_apply {M : Nat} (x₁ x₂ : (⟨2, ![1, M]⟩ : Shape).Idx → α)
    (h : Shape.Concatenates [⟨2, ![1, M]⟩, ⟨2, ![1, M]⟩] ⟨2, ![2, M]⟩ 0) (r : Fin 2) (m : Fin M) :
    concatenate ⟨2, ![2, M]⟩ 0 [⟨⟨2, ![1, M]⟩, x₁⟩, ⟨⟨2, ![1, M]⟩, x₂⟩] h (ix2 r m)
      = if r = 0 then x₁ (ix2 0 m) else x₂ (ix2 0 m) := by
  match r with
  | ⟨0, _⟩ => exact concat_rows_apply_zero x₁ x₂ h m
  | ⟨1, _⟩ => exact concat_rows_apply_one x₁ x₂ h m

/-! ## Two matrices joined along the columns: `[R, A] ++ [R, B] → [R, T]` -/

/-- The result's column extent is the sum of the two operands' column extents. -/
theorem concat_cols_total {R A B T : Nat} (h : Shape.Concatenates [⟨2, ![R, A]⟩, ⟨2, ![R, B]⟩] ⟨2, ![R, T]⟩ 1) :
    A + B = T := by
  have e : A + (B + 0) = T := h.2.2
  omega

/-- In a column below the first matrix's column extent the join is the first matrix. -/
theorem concat_cols_apply_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (e : Fin T) (he : e.val < A) :
    concatenate ⟨2, ![R, T]⟩ 1 [⟨⟨2, ![R, A]⟩, x₁⟩, ⟨⟨2, ![R, B]⟩, x₂⟩] h (ix2 r e) = x₁ (ix2 r ⟨e.val, he⟩) := by
  refine concatenate_pair_apply_left 1 x₁ x₂ h (ix2 r e) rfl (ix2 r ⟨e.val, he⟩) ?_
  intro b
  match b with
  | ⟨0, _⟩ => rfl
  | ⟨1, _⟩ => rfl

/-- In a column at or past the first matrix's column extent the join is the second matrix, that extent less. -/
theorem concat_cols_apply_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (e : Fin T) (he : A ≤ e.val)
    (hB : e.val - A < B) :
    concatenate ⟨2, ![R, T]⟩ 1 [⟨⟨2, ![R, A]⟩, x₁⟩, ⟨⟨2, ![R, B]⟩, x₂⟩] h (ix2 r e) = x₂ (ix2 r ⟨e.val - A, hB⟩) := by
  refine concatenate_pair_apply_right 1 x₁ x₂ h (ix2 r e) rfl rfl (ix2 r ⟨e.val - A, hB⟩) ?_ ?_
  · intro b hb
    match b with
    | ⟨0, _⟩ => rfl
    | ⟨1, _⟩ => exact absurd rfl hb
  · show e.val - A + A = e.val
    omega

/-- The join at `(r, e)`: the first matrix at `(r, e)` when `e < A`, else the second at `(r, e − A)`. -/
theorem concat_cols_apply {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (e : Fin T) :
    concatenate ⟨2, ![R, T]⟩ 1 [⟨⟨2, ![R, A]⟩, x₁⟩, ⟨⟨2, ![R, B]⟩, x₂⟩] h (ix2 r e)
      = if he : e.val < A then x₁ (ix2 r ⟨e.val, he⟩)
        else x₂ (ix2 r ⟨e.val - A, by have := concat_cols_total h; have := e.isLt; omega⟩) := by
  by_cases he : e.val < A
  · rw [dif_pos he]; exact concat_cols_apply_left x₁ x₂ h r e he
  · rw [dif_neg he]; exact concat_cols_apply_right x₁ x₂ h r e (by omega) _

end Cert.LibConcatRead

end
-- ==== Proof.TermsEq.lean ====
/-
  The kernel and the reference build the same edge list, the same edge weights and the same per-node scale.

  Both programs append the self-loops: the source and the target numbers are a row of the edge list followed by
  0, 1, …, N − 1, the weights are the given weights followed by N ones. The kernel flattens the row first and then
  appends the node numbers; the reference appends a two-row array of node numbers to the two-row edge list and
  then takes the row. Read at edge `e` both are the edge list's entry below 3200000 and `e − 3200000` from there
  on. The weights and the scale are spelled by the same operations on the same operands in the two programs.
-/
import proofs.«168969_j29274497089560_2_alg».proof.Proof.KernelTerms
import proofs.«168969_j29274497089560_2_alg».proof.Proof.Gen.ReferenceIdeal.Read
import proofs.«168969_j29274497089560_2_alg».proof.Proof.LibConcatRead
import proofs.«168969_j29274497089560_2_alg».proof.Proof.LibIndexRead
import Idealize.ShloMosaic.Lib.ValueIdx
import Idealize.ShloMosaic.Lib.Pipeline.Value

noncomputable section

namespace Cert.Proof.TermsEq

open Idealize.ShloMosaic Idealize.ShloMosaic.ValueIdx Cert.LibConcatRead

/-! ## The source and target numbers -/

/-- The kernel's source numbers at edge `e`: row 0 of the edge list below 3200000, then the node's own number. -/
theorem rowK_apply (x1 : IVec Cert.KernelIdeal.S2x3200000 32) (e : Fin 3300000) :
    Cert.KernelIdeal.Terms.rowK x1 (ix1 e) = if h : e.val < 3200000 then x1 (ix2 (0 : Fin 2) ⟨e.val, h⟩) else BitVec.ofNat 32 (e.val - 3200000) := by
  unfold Cert.KernelIdeal.Terms.rowK
  rw [concat_vec_apply]
  by_cases h : e.val < 3200000
  · rw [dif_pos h, dif_pos h]
    refine (shapeCast_apply _ _ (ix1 ⟨e.val, h⟩) (ix2 (0 : Fin 1) ⟨e.val, h⟩) ?_).trans ?_
    · rw [Shape.rowMajor_val_two, Shape.rowMajor_val_one]
      show 0 * 3200000 + e.val = e.val
      omega
    · refine extractStridedSlice_apply _ x1 _ (ix2 (0 : Fin 1) ⟨e.val, h⟩) (ix2 (0 : Fin 2) ⟨e.val, h⟩) fun a => ?_
      match a with
      | ⟨0, _⟩ => rfl
      | ⟨1, _⟩ => show e.val = 0 + e.val; omega
  · rw [dif_neg h, dif_neg h]
    rfl

/-- The kernel's target numbers at edge `e`: row 1 of the edge list below 3200000, then the node's own number. -/
theorem colK_apply (x1 : IVec Cert.KernelIdeal.S2x3200000 32) (e : Fin 3300000) :
    Cert.KernelIdeal.Terms.colK x1 (ix1 e) = if h : e.val < 3200000 then x1 (ix2 (1 : Fin 2) ⟨e.val, h⟩) else BitVec.ofNat 32 (e.val - 3200000) := by
  unfold Cert.KernelIdeal.Terms.colK
  rw [concat_vec_apply]
  by_cases h : e.val < 3200000
  · rw [dif_pos h, dif_pos h]
    refine (shapeCast_apply _ _ (ix1 ⟨e.val, h⟩) (ix2 (0 : Fin 1) ⟨e.val, h⟩) ?_).trans ?_
    · rw [Shape.rowMajor_val_two, Shape.rowMajor_val_one]
      show 0 * 3200000 + e.val = e.val
      omega
    · refine extractStridedSlice_apply _ x1 _ (ix2 (0 : Fin 1) ⟨e.val, h⟩) (ix2 (1 : Fin 2) ⟨e.val, h⟩) fun a => ?_
      match a with
      | ⟨0, _⟩ => rfl
      | ⟨1, _⟩ => show e.val = 0 + e.val; omega
  · rw [dif_neg h, dif_neg h]
    rfl

/-- The reference's source numbers at edge `e`: the same two cases. -/
theorem v8_apply (x1 : IVec Cert.KernelIdeal.S2x3200000 32) (e : Fin 3300000) :
    Cert.ReferenceIdeal.Read.val_main_v8 (F := Ideal) x1 (ix1 e) = if h : e.val < 3200000 then x1 (ix2 (0 : Fin 2) ⟨e.val, h⟩) else BitVec.ofNat 32 (e.val - 3200000) := by
  have hidx : Cert.ReferenceIdeal.Read.idx_main_v7 (Cert.ReferenceIdeal.Read.idx_main_v8 (ix1 e)) = ix2 (0 : Fin 2) e := funext fun a => by
    match a with
    | ⟨0, _⟩ => exact Fin.ext rfl
    | ⟨1, _⟩ => exact Fin.ext (Nat.mod_eq_of_lt e.isLt)
  rw [Cert.ReferenceIdeal.Read.val_main_v8_apply, Cert.ReferenceIdeal.Read.val_main_v7_apply, hidx]
  unfold Cert.ReferenceIdeal.Read.val_main_v4
  rw [concat_cols_apply]
  by_cases h : e.val < 3200000
  · rw [dif_pos h, dif_pos h]
  · rw [dif_neg h, dif_neg h]
    unfold Cert.ReferenceIdeal.Read.val_main_v3
    rw [concat_rows_apply_zero, Cert.ReferenceIdeal.Read.val_main_v1_apply, Cert.ReferenceIdeal.Read.val_main_v0_apply]

/-- The reference's target numbers at edge `e`: the same two cases. -/
theorem v10_apply (x1 : IVec Cert.KernelIdeal.S2x3200000 32) (e : Fin 3300000) :
    Cert.ReferenceIdeal.Read.val_main_v10 (F := Ideal) x1 (ix1 e) = if h : e.val < 3200000 then x1 (ix2 (1 : Fin 2) ⟨e.val, h⟩) else BitVec.ofNat 32 (e.val - 3200000) := by
  have hidx : Cert.ReferenceIdeal.Read.idx_main_v9 (Cert.ReferenceIdeal.Read.idx_main_v10 (ix1 e)) = ix2 (1 : Fin 2) e := funext fun a => by
    match a with
    | ⟨0, _⟩ => exact Fin.ext rfl
    | ⟨1, _⟩ => exact Fin.ext (Nat.mod_eq_of_lt e.isLt)
  rw [Cert.ReferenceIdeal.Read.val_main_v10_apply, Cert.ReferenceIdeal.Read.val_main_v9_apply, hidx]
  unfold Cert.ReferenceIdeal.Read.val_main_v4
  rw [concat_cols_apply]
  by_cases h : e.val < 3200000
  · rw [dif_pos h, dif_pos h]
  · rw [dif_neg h, dif_neg h]
    unfold Cert.ReferenceIdeal.Read.val_main_v3
    rw [concat_rows_apply_one, Cert.ReferenceIdeal.Read.val_main_v2_apply, Cert.ReferenceIdeal.Read.val_main_v0_apply]

/-- The two programs' source numbers are the same array. -/
theorem row_eq (x1 : IVec Cert.KernelIdeal.S2x3200000 32) : Cert.KernelIdeal.Terms.rowK x1 = Cert.ReferenceIdeal.Read.val_main_v8 (F := Ideal) x1 := by
  funext i
  obtain ⟨e, rfl⟩ : ∃ e : Fin 3300000, i = ix1 e := ⟨i 0, eq_ix1 i⟩
  rw [rowK_apply, v8_apply]

/-- The two programs' target numbers are the same array. -/
theorem col_eq (x1 : IVec Cert.KernelIdeal.S2x3200000 32) : Cert.KernelIdeal.Terms.colK x1 = Cert.ReferenceIdeal.Read.val_main_v10 (F := Ideal) x1 := by
  funext i
  obtain ⟨e, rfl⟩ : ∃ e : Fin 3300000, i = ix1 e := ⟨i 0, eq_ix1 i⟩
  rw [colK_apply, v10_apply]

/-! ## The weights and the scale -/

/-- The two programs' edge weights are the same array: the given weights followed by ones. -/
theorem weight_eq (x2 : FVec Ideal Cert.KernelIdeal.S3200000 .f32) : Cert.KernelIdeal.Terms.weightK x2 = Cert.ReferenceIdeal.Read.val_main_v6 (F := Ideal) x2 := rfl

/-- The kernel's scale chain at the reference's target numbers and weights is the reference's scale: the same
    operations on the same operands. -/
theorem scale_eq (x1 : IVec Cert.KernelIdeal.S2x3200000 32) (x2 : FVec Ideal Cert.KernelIdeal.S3200000 .f32) :
    Cert.KernelIdeal.Terms.scaleK (Cert.ReferenceIdeal.Read.val_main_v10 (F := Ideal) x1) (Cert.ReferenceIdeal.Read.val_main_v6 (F := Ideal) x2)
      = Cert.ReferenceIdeal.Read.val_main_v20 (F := Ideal) x1 x2 := rfl

end Cert.Proof.TermsEq

end
-- ==== Proof.RefRead.lean ====
/-
  The reference's result, read node by node, is the edge-scaled arrangement of the two-layer graph convolution.
-/
import proofs.«168969_j29274497089560_2_alg».proof.Proof.Gen.ReferenceIdeal.Read
import proofs.«168969_j29274497089560_2_alg».proof.Proof.LibGatherScatter
import proofs.«168969_j29274497089560_2_alg».proof.Proof.LibConcatRead
import proofs.«168969_j29274497089560_2_alg».proof.Proof.LibIndexRead
import proofs.«168969_j29274497089560_2_alg».proof.Proof.Edges
import proofs.«168969_j29274497089560_2_alg».proof.Proof.Spec
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.LibGatherScatter Cert.GCN

/-! ## The second layer reads the same edge list and the same scale -/

/-- The source numbers read again for the second layer are the first layer's: the same slice of the same array. -/
theorem v56_eq (x1 : (⟨S2x3200000, .i32⟩ : BufTy).Contents (Elt Ideal)) : val_main_v56 (F := Ideal) x1 = val_main_v8 (F := Ideal) x1 := rfl
/-- So are the target numbers. -/
theorem v58_eq (x1 : (⟨S2x3200000, .i32⟩ : BufTy).Contents (Elt Ideal)) : val_main_v58 (F := Ideal) x1 = val_main_v10 (F := Ideal) x1 := rfl
/-- The per-node scale computed again for the second layer is the first layer's: the same operations on the same operands. -/
theorem v68_eq (x1 : (⟨S2x3200000, .i32⟩ : BufTy).Contents (Elt Ideal)) (x2 : (⟨S3200000, .f32⟩ : BufTy).Contents (Elt Ideal)) :
    val_main_v68 (F := Ideal) x1 x2 = val_main_v20 (F := Ideal) x1 x2 := rfl

/-! ## The printed gathers and scatters, read at an index -/

/-- The flat gather of the program at edge `e`: the operand at the start index, clamped into the node range. -/
theorem gatherVec_apply {α : Type} (x : S100000.Idx → α) (idx : IVec S3300000x1 32) (e : Fin 3300000) :
    Host.gather gather_S100000_S3300000x1_S3300000_n_0_n_n_0_1_1 x idx (ix1 e)
      = x (ix1 (clampIdx 100000 (by decide) (idx (ix2 e 0)))) :=
  gather_vec_apply (by decide) Facts₀.gather_S100000_S3300000x1_S3300000_n_0_n_n_0_1_1_wf x idx e

/-- The 64-column row gather of the program at `(e, c)`: the operand's row at the clamped start index. -/
theorem gatherRows64_apply {α : Type} (x : S100000x64.Idx → α) (idx : IVec S3300000x1 32) (e : Fin 3300000) (c : Fin 64) :
    Host.gather gather_S100000x64_S3300000x1_S3300000x64_1_0_n_n_0_1_164 x idx (ix2 e c)
      = x (ix2 (clampIdx 100000 (by decide) (idx (ix2 e 0))) c) :=
  gather_rows_apply (by decide) Facts₀.gather_S100000x64_S3300000x1_S3300000x64_1_0_n_n_0_1_164_wf x idx e c

/-- The one-column row gather of the program at `(e, c)`. -/
theorem gatherRows1_apply {α : Type} (x : S100000x1.Idx → α) (idx : IVec S3300000x1 32) (e : Fin 3300000) (c : Fin 1) :
    Host.gather gather_S100000x1_S3300000x1_S3300000x1_1_0_n_n_0_1_11 x idx (ix2 e c)
      = x (ix2 (clampIdx 100000 (by decide) (idx (ix2 e 0))) c) :=
  gather_rows_apply (by decide) Facts₀.gather_S100000x1_S3300000x1_S3300000x1_1_0_n_n_0_1_11_wf x idx e c

/-- The 64-column accumulating scatter of the program at `(v, c)`: the operand plus the updates of the edges landing at `v`. -/
theorem scatter64_apply (x : FVec Ideal S100000x64 .f32) (idx : IVec S3300000x1 32) (upd : FVec Ideal S3300000x64 .f32)
    (v : Fin 100000) (c : Fin 64) :
    Host.scatterAdd (F := Ideal) scatter_S100000x64_S3300000x1_S3300000x64_1_0_0_1 x idx upd (ix2 v c)
      = x (ix2 v c) + ∑ e ∈ Finset.univ.filter (fun e : Fin 3300000 => (idx (ix2 e 0)).toInt = (v.val : Int)), upd (ix2 e c) :=
  scatterAdd_rows_apply Facts₀.scatter_S100000x64_S3300000x1_S3300000x64_1_0_0_1_wf x idx upd v c

/-- The one-column accumulating scatter of the program at `(v, c)`. -/
theorem scatter1_apply (x : FVec Ideal S100000x1 .f32) (idx : IVec S3300000x1 32) (upd : FVec Ideal S3300000x1 .f32)
    (v : Fin 100000) (c : Fin 1) :
    Host.scatterAdd (F := Ideal) scatter_S100000x1_S3300000x1_S3300000x1_1_0_0_1 x idx upd (ix2 v c)
      = x (ix2 v c) + ∑ e ∈ Finset.univ.filter (fun e : Fin 3300000 => (idx (ix2 e 0)).toInt = (v.val : Int)), upd (ix2 e c) :=
  scatterAdd_rows_apply Facts₀.scatter_S100000x1_S3300000x1_S3300000x1_1_0_0_1_wf x idx upd v c

/-! ## The row numbers the gathers start from -/

/-- Selecting `R + 100000` where `R < 0` and `R` elsewhere is the wrapped row number, edge by edge. -/
theorem wrap_apply (R z t : IVec S3300000 32) (hz : ∀ i, z i = 0#32) (ht : ∀ i, t i = 100000#32) (e : Fin 3300000) :
    select (cmpi .slt R z) (addi R t) R (ix1 e) = wrapIdx (R (ix1 e)) := by
  show Scalar.select (IntOp.cmpi .slt (R (ix1 e)) (z (ix1 e))) (IntOp.addi (R (ix1 e)) (t (ix1 e))) (R (ix1 e)) = _
  rw [hz, ht]; rfl

/-- A flat array placed as a column reads, at `(e, u)`, the array at `e`. -/
theorem col_apply {α : Type} (h : S3300000.BroadcastsInDim S3300000x1 ![0]) (x : S3300000.Idx → α) (e : Fin 3300000) (u : Fin 1) :
    broadcastInDim S3300000x1 ![0] h x (ix2 e u) = x (ix1 e) :=
  RowRead.broadcastInDim_a_a1_apply _ h rfl x e u

/-- The start index of the source-scale gather of layer 1 at edge `e` is the wrapped source number. -/
theorem v26_apply (x1 : (⟨S2x3200000, .i32⟩ : BufTy).Contents (Elt Ideal)) (e : Fin 3300000) :
    val_main_v26 (F := Ideal) x1 (ix2 e 0) = wrapIdx (val_main_v8 (F := Ideal) x1 (ix1 e)) :=
  (col_apply _ _ e 0).trans (wrap_apply _ _ _ (fun i => by rw [val_main_v21_apply]; rfl) (fun i => by rw [val_main_v23_apply]; rfl) e)
/-- The start index of the target-scale gather of layer 1 at edge `e` is the wrapped target number. -/
theorem v34_apply (x1 : (⟨S2x3200000, .i32⟩ : BufTy).Contents (Elt Ideal)) (e : Fin 3300000) :
    val_main_v34 (F := Ideal) x1 (ix2 e 0) = wrapIdx (val_main_v10 (F := Ideal) x1 (ix1 e)) :=
  (col_apply _ _ e 0).trans (wrap_apply _ _ _ (fun i => by rw [val_main_v29_apply]; rfl) (fun i => by rw [val_main_v31_apply]; rfl) e)
/-- The start index of the row gather of layer 1 at edge `e` is the wrapped source number. -/
theorem v44_apply (x1 : (⟨S2x3200000, .i32⟩ : BufTy).Contents (Elt Ideal)) (e : Fin 3300000) :
    val_main_v44 (F := Ideal) x1 (ix2 e 0) = wrapIdx (val_main_v8 (F := Ideal) x1 (ix1 e)) :=
  (col_apply _ _ e 0).trans (wrap_apply _ _ _ (fun i => by rw [val_main_v39_apply]; rfl) (fun i => by rw [val_main_v41_apply]; rfl) e)
/-- The start index of the source-scale gather of layer 2 at edge `e` is the wrapped source number. -/
theorem v74_apply (x1 : (⟨S2x3200000, .i32⟩ : BufTy).Contents (Elt Ideal)) (e : Fin 3300000) :
    val_main_v74 (F := Ideal) x1 (ix2 e 0) = wrapIdx (val_main_v8 (F := Ideal) x1 (ix1 e)) :=
  (col_apply _ _ e 0).trans (wrap_apply (val_main_v56 (F := Ideal) x1) _ _ (fun i => by rw [val_main_v69_apply]; rfl) (fun i => by rw [val_main_v71_apply]; rfl) e)
/-- The start index of the target-scale gather of layer 2 at edge `e` is the wrapped target number. -/
theorem v82_apply (x1 : (⟨S2x3200000, .i32⟩ : BufTy).Contents (Elt Ideal)) (e : Fin 3300000) :
    val_main_v82 (F := Ideal) x1 (ix2 e 0) = wrapIdx (val_main_v10 (F := Ideal) x1 (ix1 e)) :=
  (col_apply _ _ e 0).trans (wrap_apply (val_main_v58 (F := Ideal) x1) _ _ (fun i => by rw [val_main_v77_apply]; rfl) (fun i => by rw [val_main_v79_apply]; rfl) e)
/-- The start index of the row gather of layer 2 at edge `e` is the wrapped source number. -/
theorem v92_apply (x1 : (⟨S2x3200000, .i32⟩ : BufTy).Contents (Elt Ideal)) (e : Fin 3300000) :
    val_main_v92 (F := Ideal) x1 (ix2 e 0) = wrapIdx (val_main_v8 (F := Ideal) x1 (ix1 e)) :=
  (col_apply _ _ e 0).trans (wrap_apply (val_main_v56 (F := Ideal) x1) _ _ (fun i => by rw [val_main_v87_apply]; rfl) (fun i => by rw [val_main_v89_apply]; rfl) e)

/-! ## The edge list, the scale and the weights, as the arrangement names them -/

/-- The node a gather reads at edge `e`'s source number. -/
abbrev srcOf (x1 : (⟨S2x3200000, .i32⟩ : BufTy).Contents (Elt Ideal)) : Fin 3300000 → Fin 100000 := nodeOf (val_main_v8 (F := Ideal) x1)
/-- The node a gather reads at edge `e`'s target number. -/
abbrev dstOf (x1 : (⟨S2x3200000, .i32⟩ : BufTy).Contents (Elt Ideal)) : Fin 3300000 → Fin 100000 := nodeOf (val_main_v10 (F := Ideal) x1)
/-- The edges landing at a node. -/
abbrev hitsAt (x1 : (⟨S2x3200000, .i32⟩ : BufTy).Contents (Elt Ideal)) : Fin 100000 → Finset (Fin 3300000) := hitsOf (val_main_v10 (F := Ideal) x1)
/-- The per-node scale. -/
abbrev scaleOf (x1 : (⟨S2x3200000, .i32⟩ : BufTy).Contents (Elt Ideal)) (x2 : (⟨S3200000, .f32⟩ : BufTy).Contents (Elt Ideal)) : Fin 100000 → EReal := fun u => val_main_v20 (F := Ideal) x1 x2 (ix1 u)
/-- The edge weights. -/
abbrev weightOf (x2 : (⟨S3200000, .f32⟩ : BufTy).Contents (Elt Ideal)) : Fin 3300000 → EReal := fun e => val_main_v6 (F := Ideal) x2 (ix1 e)

/-! ## The edge factor -/

/-- Layer 1's source-scale gather at edge `e` is the scale of the edge's source node. -/
theorem v27_at (x1 : (⟨S2x3200000, .i32⟩ : BufTy).Contents (Elt Ideal)) (x2 : (⟨S3200000, .f32⟩ : BufTy).Contents (Elt Ideal)) (e : Fin 3300000) :
    val_main_v27 (F := Ideal) x1 x2 (ix1 e) = scaleOf x1 x2 (srcOf x1 e) := by
  unfold val_main_v27
  rw [gatherVec_apply, v26_apply]
  rfl
/-- Layer 1's target-scale gather at edge `e` is the scale of the edge's target node. -/
theorem v35_at (x1 : (⟨S2x3200000, .i32⟩ : BufTy).Contents (Elt Ideal)) (x2 : (⟨S3200000, .f32⟩ : BufTy).Contents (Elt Ideal)) (e : Fin 3300000) :
    val_main_v35 (F := Ideal) x1 x2 (ix1 e) = scaleOf x1 x2 (dstOf x1 e) := by
  unfold val_main_v35
  rw [gatherVec_apply, v34_apply]
  rfl
/-- Layer 2's source-scale gather at edge `e` is the scale of the edge's source node. -/
theorem v75_at (x1 : (⟨S2x3200000, .i32⟩ : BufTy).Contents (Elt Ideal)) (x2 : (⟨S3200000, .f32⟩ : BufTy).Contents (Elt Ideal)) (e : Fin 3300000) :
    val_main_v75 (F := Ideal) x1 x2 (ix1 e) = scaleOf x1 x2 (srcOf x1 e) := by
  unfold val_main_v75
  rw [gatherVec_apply, v74_apply, v68_eq]
  rfl
/-- Layer 2's target-scale gather at edge `e` is the scale of the edge's target node. -/
theorem v83_at (x1 : (⟨S2x3200000, .i32⟩ : BufTy).Contents (Elt Ideal)) (x2 : (⟨S3200000, .f32⟩ : BufTy).Contents (Elt Ideal)) (e : Fin 3300000) :
    val_main_v83 (F := Ideal) x1 x2 (ix1 e) = scaleOf x1 x2 (dstOf x1 e) := by
  unfold val_main_v83
  rw [gatherVec_apply, v82_apply, v68_eq]
  rfl

/-- Layer 1's edge factor at edge `e` is the symmetric normalisation: source scale times weight, times target scale. -/
theorem v36_at (x1 : (⟨S2x3200000, .i32⟩ : BufTy).Contents (Elt Ideal)) (x2 : (⟨S3200000, .f32⟩ : BufTy).Contents (Elt Ideal)) (e : Fin 3300000) :
    val_main_v36 (F := Ideal) x1 x2 (ix1 e) = norm (srcOf x1) (dstOf x1) (scaleOf x1 x2) (weightOf x2) e := by
  rw [val_main_v36_apply, val_main_v28_apply, Ideal.mulf_def, Ideal.mulf_def, v27_at, v35_at]
  rfl
/-- Layer 2's edge factor at edge `e` is the same normalisation. -/
theorem v84_at (x1 : (⟨S2x3200000, .i32⟩ : BufTy).Contents (Elt Ideal)) (x2 : (⟨S3200000, .f32⟩ : BufTy).Contents (Elt Ideal)) (e : Fin 3300000) :
    val_main_v84 (F := Ideal) x1 x2 (ix1 e) = norm (srcOf x1) (dstOf x1) (scaleOf x1 x2) (weightOf x2) e := by
  rw [val_main_v84_apply, val_main_v76_apply, Ideal.mulf_def, Ideal.mulf_def, v75_at, v83_at]
  rfl

/-! ## Layer 1 -/

/-- The first dense transform at `(u, j)` is the row of `X` against the column of `W1`. -/
theorem v37_at (x0 : (⟨S100000x128, .f32⟩ : BufTy).Contents (Elt Ideal)) (x3 : (⟨S128x64, .f32⟩ : BufTy).Contents (Elt Ideal)) (u : Fin 100000) (j : Fin 64) :
    val_main_v37 (F := Ideal) x0 x3 (ix2 u j) = dense1 (fun u k => x0 (ix2 u k)) (fun k j => x3 (ix2 k j)) u j := by
  rw [val_main_v37_apply]
  unfold dense1
  refine Finset.sum_congr rfl fun k _ => ?_
  have hl : lidx_main_v37 (ix2 u j) k = ix2 u k := funext fun a => by
    match a with
    | ⟨0, _⟩ => rfl
    | ⟨1, _⟩ => rfl
  have hr : ridx_main_v37 (ix2 u j) k = ix2 k j := funext fun a => by
    match a with
    | ⟨0, _⟩ => rfl
    | ⟨1, _⟩ => rfl
  rw [hl, hr]

/-- Layer 1's row gather at `(e, j)` is the dense transform at the edge's source node. -/
theorem v45_at (x0 : (⟨S100000x128, .f32⟩ : BufTy).Contents (Elt Ideal)) (x1 : (⟨S2x3200000, .i32⟩ : BufTy).Contents (Elt Ideal)) (x3 : (⟨S128x64, .f32⟩ : BufTy).Contents (Elt Ideal)) (e : Fin 3300000) (j : Fin 64) :
    val_main_v45 (F := Ideal) x0 x1 x3 (ix2 e j) = val_main_v37 (F := Ideal) x0 x3 (ix2 (srcOf x1 e) j) := by
  unfold val_main_v45
  rw [gatherRows64_apply, v44_apply]
  rfl

/-- Layer 1's edge factor spread over the 64 columns reads the edge factor. -/
theorem v46_at (x1 : (⟨S2x3200000, .i32⟩ : BufTy).Contents (Elt Ideal)) (x2 : (⟨S3200000, .f32⟩ : BufTy).Contents (Elt Ideal)) (e : Fin 3300000) (j : Fin 64) :
    val_main_v46 (F := Ideal) x1 x2 (ix2 e j) = val_main_v36 (F := Ideal) x1 x2 (ix1 e) :=
  (RowRead.broadcastInDim_a1_ab_apply _ _ rfl _ e j).trans (col_apply _ _ e 0)

/-- Layer 1's message on edge `e`, column `j`: the edge factor times the dense transform at the source node. -/
theorem v47_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (e : Fin 3300000) (j : Fin 64) :
    val_main_v47 (F := Ideal) x0 x1 x2 x3 (ix2 e j)
      = norm (srcOf x1) (dstOf x1) (scaleOf x1 x2) (weightOf x2) e
        * dense1 (fun u k => x0 (ix2 u k)) (fun k j => x3 (ix2 k j)) (srcOf x1 e) j := by
  rw [val_main_v47_apply, Ideal.mulf_def, v46_at, v36_at, v45_at, v37_at]

/-- The array layer 1's scatter starts from is zero everywhere. -/
theorem v48_at (i : S100000x64.Idx) : val_main_v48 (F := Ideal) i = (0 : EReal) := by
  rw [val_main_v48_apply, val_main_cst_10_apply, Ideal.ofBits_def, Ideal.ofBits_zero_f32]

/-- Layer 1's aggregate at `(u, j)`. -/
theorem v50_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (u : Fin 100000) (j : Fin 64) :
    val_main_v50 (F := Ideal) x0 x1 x2 x3 (ix2 u j)
      = rAgg1 (srcOf x1) (dstOf x1) (hitsAt x1) (scaleOf x1 x2) (weightOf x2)
          (fun u k => x0 (ix2 u k)) (fun k j => x3 (ix2 k j)) u j := by
  unfold val_main_v50 rAgg1
  rw [scatter64_apply, v48_at]
  refine congrArg (fun s => (0 : EReal) + s) ?_
  unfold hitsAt hitsOf
  refine Finset.sum_congr (Finset.filter_congr fun e _ => ?_) fun e _ => v47_at x0 x1 x2 x3 e j
  rw [show val_main_v49 (F := Ideal) x1 (ix2 e 0) = val_main_v10 (F := Ideal) x1 (ix1 e) from col_apply _ _ e 0]

/-- The bias of layer 1 spread over the nodes reads the bias of the column. -/
theorem v52_at (x4 : (⟨S64, .f32⟩ : BufTy).Contents (Elt Ideal)) (u : Fin 100000) (j : Fin 64) : val_main_v52 (F := Ideal) x4 (ix2 u j) = x4 (ix1 j) :=
  (RowRead.broadcastInDim_1b_ab_apply _ _ rfl _ u j).trans (RowRead.broadcastInDim_b_1b_apply _ _ rfl _ 0 j)

/-- Layer 1 before the rectifier at `(u, j)`: the aggregate plus the bias. -/
theorem v53_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (u : Fin 100000) (j : Fin 64) :
    val_main_v53 (F := Ideal) x0 x1 x2 x3 x4 (ix2 u j) = rAgg1 (srcOf x1) (dstOf x1) (hitsAt x1) (scaleOf x1 x2) (weightOf x2) (fun u k => x0 (ix2 u k)) (fun k j => x3 (ix2 k j)) u j + x4 (ix1 j) := by
  rw [val_main_v53_apply, Ideal.addf_def, v50_at, v52_at]

/-- Layer 1 after the rectifier at `(u, j)`: the maximum with zero. -/
theorem v54_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (u : Fin 100000) (j : Fin 64) :
    val_main_v54 (F := Ideal) x0 x1 x2 x3 x4 (ix2 u j) = max (rAgg1 (srcOf x1) (dstOf x1) (hitsAt x1) (scaleOf x1 x2) (weightOf x2) (fun u k => x0 (ix2 u k)) (fun k j => x3 (ix2 k j)) u j + x4 (ix1 j)) 0 := by
  rw [val_main_v54_apply, Ideal.maximumf_def, v53_at, val_main_call2_v0_apply, val_main_call2_cst_apply, Ideal.ofBits_def,
    Ideal.ofBits_zero_f32]

/-! ## Layer 2 -/

/-- The second dense transform at node `u`: the rectified row against the column `W2`. -/
theorem v85_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S64x1, .f32⟩ : BufTy).Contents (Elt Ideal)) (u : Fin 100000) :
    val_main_v85 (F := Ideal) x0 x1 x2 x3 x4 x5 (ix2 u 0)
      = rDense2 (srcOf x1) (dstOf x1) (hitsAt x1) (scaleOf x1 x2) (weightOf x2) (fun u k => x0 (ix2 u k)) (fun k j => x3 (ix2 k j)) (fun j => x4 (ix1 j)) (fun j => x5 (ix2 j 0)) u := by
  rw [val_main_v85_apply]
  unfold rDense2
  refine Finset.sum_congr rfl fun k _ => ?_
  have hl : lidx_main_v85 (ix2 u 0) k = ix2 u k := funext fun a => by
    match a with
    | ⟨0, _⟩ => rfl
    | ⟨1, _⟩ => rfl
  have hr : ridx_main_v85 (ix2 u 0) k = ix2 k 0 := funext fun a => by
    match a with
    | ⟨0, _⟩ => rfl
    | ⟨1, _⟩ => rfl
  rw [hl, hr, v54_at]

/-- Layer 2's row gather at edge `e` is the second dense transform at the edge's source node. -/
theorem v93_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S64x1, .f32⟩ : BufTy).Contents (Elt Ideal)) (e : Fin 3300000) :
    val_main_v93 (F := Ideal) x0 x1 x2 x3 x4 x5 (ix2 e 0) = val_main_v85 (F := Ideal) x0 x1 x2 x3 x4 x5 (ix2 (srcOf x1 e) 0) := by
  unfold val_main_v93
  rw [gatherRows1_apply, v92_apply]
  rfl

/-- Layer 2's message on edge `e`: the edge factor times the second dense transform at the source node. -/
theorem v94_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S64x1, .f32⟩ : BufTy).Contents (Elt Ideal)) (e : Fin 3300000) :
    val_main_v94 (F := Ideal) x0 x1 x2 x3 x4 x5 (ix2 e 0)
      = norm (srcOf x1) (dstOf x1) (scaleOf x1 x2) (weightOf x2) e
        * rDense2 (srcOf x1) (dstOf x1) (hitsAt x1) (scaleOf x1 x2) (weightOf x2) (fun u k => x0 (ix2 u k)) (fun k j => x3 (ix2 k j)) (fun j => x4 (ix1 j)) (fun j => x5 (ix2 j 0)) (srcOf x1 e) := by
  rw [val_main_v94_apply, Ideal.mulf_def,
    show val_main_v86 (F := Ideal) x1 x2 (ix2 e 0) = val_main_v84 (F := Ideal) x1 x2 (ix1 e) from col_apply _ _ e 0,
    v84_at, v93_at, v85_at]

/-- The array layer 2's scatter starts from is zero everywhere. -/
theorem v95_at (i : S100000x1.Idx) : val_main_v95 (F := Ideal) i = (0 : EReal) := by
  rw [val_main_v95_apply, val_main_cst_22_apply, Ideal.ofBits_def, Ideal.ofBits_zero_f32]

/-- Layer 2's aggregate at node `v`. -/
theorem v97_at (x0 : (⟨S100000x128, .f32⟩ : BufTy).Contents (Elt Ideal)) (x1 : (⟨S2x3200000, .i32⟩ : BufTy).Contents (Elt Ideal)) (x2 : (⟨S3200000, .f32⟩ : BufTy).Contents (Elt Ideal)) (x3 : (⟨S128x64, .f32⟩ : BufTy).Contents (Elt Ideal)) (x4 : (⟨S64, .f32⟩ : BufTy).Contents (Elt Ideal)) (x5 : (⟨S64x1, .f32⟩ : BufTy).Contents (Elt Ideal)) (v : Fin 100000) :
    val_main_v97 (F := Ideal) x0 x1 x2 x3 x4 x5 (ix2 v 0)
      = 0 + ∑ e ∈ hitsAt x1 v, norm (srcOf x1) (dstOf x1) (scaleOf x1 x2) (weightOf x2) e
          * rDense2 (srcOf x1) (dstOf x1) (hitsAt x1) (scaleOf x1 x2) (weightOf x2) (fun u k => x0 (ix2 u k)) (fun k j => x3 (ix2 k j)) (fun j => x4 (ix1 j)) (fun j => x5 (ix2 j 0)) (srcOf x1 e) := by
  unfold val_main_v97
  rw [scatter1_apply, v95_at]
  refine congrArg (fun s => (0 : EReal) + s) ?_
  unfold hitsAt hitsOf
  refine Finset.sum_congr (Finset.filter_congr fun e _ => ?_) fun e _ => v94_at x0 x1 x2 x3 x4 x5 e
  rw [show val_main_v96 (F := Ideal) x1 (ix2 e 0) = val_main_v58 (F := Ideal) x1 (ix1 e) from col_apply _ _ e 0, v58_eq]

/-- The bias of layer 2 spread over the nodes reads the bias. -/
theorem v99_at (x6 : (⟨S1, .f32⟩ : BufTy).Contents (Elt Ideal)) (v : Fin 100000) : val_main_v99 (F := Ideal) x6 (ix2 v 0) = x6 (ix1 0) :=
  (RowRead.broadcastInDim_1b_ab_apply _ _ rfl _ v 0).trans (RowRead.broadcastInDim_b_1b_apply _ _ rfl _ 0 0)

/-- The reference's result at node `v`: with the edge list's source numbers `%8`, target numbers `%10`, weights `%6`
    (self-loops appended) and the per-node scale `%20`, it is the edge-scaled arrangement. -/
theorem ref_out (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x64, .f32⟩ : BufTy).Contents (Elt Ideal))
    (x4 : (⟨S64, .f32⟩ : BufTy).Contents (Elt Ideal)) (x5 : (⟨S64x1, .f32⟩ : BufTy).Contents (Elt Ideal))
    (x6 : (⟨S1, .f32⟩ : BufTy).Contents (Elt Ideal)) (v : Fin 100000) :
    val_main_v100 (F := Ideal) x0 x1 x2 x3 x4 x5 x6 (ix2 v 0)
      = rOut (nodeOf (val_main_v8 (F := Ideal) x1)) (nodeOf (val_main_v10 (F := Ideal) x1)) (hitsOf (val_main_v10 (F := Ideal) x1))
          (fun u => val_main_v20 (F := Ideal) x1 x2 (ix1 u)) (fun e => val_main_v6 (F := Ideal) x2 (ix1 e))
          (fun u k => x0 (ix2 u k)) (fun k j => x3 (ix2 k j)) (fun j => x4 (ix1 j)) (fun j => x5 (ix2 j 0)) (x6 (ix1 0)) v := by
  rw [val_main_v100_apply, Ideal.addf_def, v97_at, v99_at]
  rfl

end Cert.ReferenceIdeal.RefValue

end
-- ==== Proof.Reals.lean ====
/-
  "Every entry is a real number": an array over the extended reals none of whose entries is `⊤` or `⊥`.
-/
import Idealize.ShloMosaic.Lib.ValueIdx

namespace Cert.GCN

open Idealize.ShloMosaic

/-- Every entry of the array is a real number. -/
def AllReal {S : Shape} (x : S.Idx → EReal) : Prop := ∀ i, x i ≠ ⊤ ∧ x i ≠ ⊥

end Cert.GCN
-- ==== Proof.Finite.lean ====
/-
  From the precondition to "every entry of every float input is a real number".

  The precondition is the conjunction, over the six float inputs, of `all (|x| < +∞)`: each conjunct is an
  all-reduction by `and` of the entrywise comparison of |x| against the float word of +∞. On the extended reals
  |x| is max x (−x) and that word is ⊤, so a comparison bit equal to 1 says max x (−x) < ⊤, which excludes both
  x = ⊤ and x = ⊥ (for x = ⊥ the negation is ⊤). An all-reduction by `and` that is 1 had a 1 at every entry.
-/
import proofs.«168969_j29274497089560_2_alg».proof.Defs
import proofs.«168969_j29274497089560_2_alg».proof.Proof.Gen.Pre_finite_inputs
import proofs.«168969_j29274497089560_2_alg».proof.Proof.Reals
import Idealize.ShloMosaic.Lib.ReduceAll
import Idealize.ShloMosaic.Lib.ValueIdx
import Idealize.ShloMosaic.PureOps.Ideal.Laws

namespace Cert.Proof.Finite

open Idealize.ShloMosaic Idealize.ShloMosaic.ValueIdx Cert.GCN

/-- The rank-zero shape has one index. -/
instance : Subsingleton Cert.Pre_finite_inputs.S_.Idx := ⟨fun a b => funext fun d => d.elim0⟩

/-- The float word of +∞ is the top of the extended reals. -/
theorem inf_word : Ideal.ofBits .f32 0x7F800000#32 = (⊤ : EReal) := by simp [Ideal.ofBits, Ideal.ieee]

/-- An extended real whose absolute value max x (−x) is below ⊤ is a real number. -/
theorem real_of_abs_lt_top (x : EReal) (h : max x (-x) < ⊤) : x ≠ ⊤ ∧ x ≠ ⊥ := by
  constructor
  · intro e; rw [e] at h; simp at h
  · intro e; rw [e] at h; simp at h

/-- If the all-reduction by `and` of the entrywise test |x| < +∞ over an array of any shape is 1, every entry of the
    array is a real number. -/
theorem allReal_of_all {S : Shape} {axes : List (Fin S.rank)} (x : FVec Ideal S .f32)
    (bc : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf x)
            (broadcastInDim S ![] bc (constant (F := Ideal) Cert.Pre_finite_inputs.S_ .f32 0x7F800000#32)))
          (constantI Cert.Pre_finite_inputs.S_ 1 1#1) hr hu ix0 = 1#1) :
    AllReal (S := S) x := by
  intro i
  have hi := Host.reduce_andi_all _ _ hr hu ix0 e i
  have hb : BitVec.ofBool (decide (max (x i : EReal) (-(x i : EReal)) < Ideal.ofBits .f32 0x7F800000#32)) = 1#1 := hi
  rw [inf_word] at hb
  refine real_of_abs_lt_top (x i) ?_
  revert hb
  cases hd : decide (max (x i : EReal) (-(x i : EReal)) < ⊤) with
  | true => intro _; exact of_decide_eq_true hd
  | false => intro hb; exact absurd hb (by decide)

/-- Under the precondition every float input holds only real numbers, on every core. -/
theorem inputs_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (S := Cert.KernelIdeal.S100000x128) (m ((c.tc : Thread Cert.KernelIdeal.nD Cert.KernelIdeal.τ).loc Cert.KernelIdeal.main_arg0))
    ∧ AllReal (S := Cert.KernelIdeal.S3200000) (m ((c.tc : Thread Cert.KernelIdeal.nD Cert.KernelIdeal.τ).loc Cert.KernelIdeal.main_arg2))
    ∧ AllReal (S := Cert.KernelIdeal.S128x64) (m ((c.tc : Thread Cert.KernelIdeal.nD Cert.KernelIdeal.τ).loc Cert.KernelIdeal.main_arg3))
    ∧ AllReal (S := Cert.KernelIdeal.S64) (m ((c.tc : Thread Cert.KernelIdeal.nD Cert.KernelIdeal.τ).loc Cert.KernelIdeal.main_arg4))
    ∧ AllReal (S := Cert.KernelIdeal.S64x1) (m ((c.tc : Thread Cert.KernelIdeal.nD Cert.KernelIdeal.τ).loc Cert.KernelIdeal.main_arg5))
    ∧ AllReal (S := Cert.KernelIdeal.S1) (m ((c.tc : Thread Cert.KernelIdeal.nD Cert.KernelIdeal.τ).loc Cert.KernelIdeal.main_arg6)) := by
  have h := congrFun (hpre c) ix0
  dsimp only [Cert.Pre_finite_inputs.fn, Cert.Pre_finite_inputs.fn_part1] at h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨e0, e2⟩ := IntOp.andi_eq_one.1 h
  exact ⟨allReal_of_all _ _ _ _ e0, allReal_of_all _ _ _ _ e2, allReal_of_all _ _ _ _ e3,
    allReal_of_all _ _ _ _ e4, allReal_of_all _ _ _ _ e5, allReal_of_all _ _ _ _ e6⟩

end Cert.Proof.Finite
-- ==== Proof.ScaleReal.lean ====
/-
  The reference's edge weights and per-node scale are real-valued when the edge-weight input is.

  The edge weights are the input weights followed by one self-loop weight 1 per node: each entry is an entry of
  the input or the number 1. The degree of a node is 0 plus the sum of the weights of the edges that land on it, a
  finite sum of real numbers, hence a real number. The scale of a node is the reciprocal square root of its degree
  when the degree is positive, and 0 otherwise: the reciprocal square root of a positive real number is a real
  number, and so is 0. Which edges land on a node plays no part.
-/
import proofs.«168969_j29274497089560_2_alg».proof.Proof.Gen.ReferenceIdeal.Read
import proofs.«168969_j29274497089560_2_alg».proof.Proof.LibGatherScatter
import proofs.«168969_j29274497089560_2_alg».proof.Proof.LibConcatRead
import proofs.«168969_j29274497089560_2_alg».proof.Proof.Reals
import Idealize.ShloMosaic.Lib.ValueIdx
import Idealize.ShloMosaic.PureOps.Ideal.Laws

noncomputable section

namespace Cert.ReferenceIdeal.ScaleReal

open Idealize.ShloMosaic Idealize.ShloMosaic.ValueIdx
open Cert.ReferenceIdeal Cert.ReferenceIdeal.Gen Cert.ReferenceIdeal.Read Cert.GCN
open Cert.LibGatherScatter Cert.LibConcatRead

/-- The float word of 1.0 is the real number 1. -/
theorem one_word : Ideal.ofBits .f32 0x3F800000#32 = ((1 : ℝ) : EReal) := by
  simp [Ideal.ofBits, Ideal.ieee]
  exact_mod_cast (by norm_num : (8388608 : ℝ) * ((2 : ℝ) ^ 23)⁻¹ = 1)

/-- A finite sum of real numbers is a real number. -/
theorem sum_real {ι : Type} (s : Finset ι) (f : ι → EReal) (hf : ∀ i ∈ s, f i ≠ ⊤ ∧ f i ≠ ⊥) :
    (∑ i ∈ s, f i) ≠ ⊤ ∧ (∑ i ∈ s, f i) ≠ ⊥ := by
  classical
  induction s using Finset.induction_on with
  | empty => rw [Finset.sum_empty]; exact ⟨EReal.zero_ne_top, EReal.zero_ne_bot⟩
  | insert a s ha ih =>
    rw [Finset.sum_insert ha]
    have h1 := hf a (Finset.mem_insert_self a s)
    have h2 := ih fun i hi => hf i (Finset.mem_insert_of_mem hi)
    exact ⟨EReal.add_ne_top h1.1 h2.1, EReal.add_ne_bot_iff.2 ⟨h1.2, h2.2⟩⟩

/-! ## The edge weights -/

/-- The appended self-loop weights are all the number 1. -/
theorem selfLoop_apply (i : S100000.Idx) : (val_main_v5 (F := Ideal) i : EReal) = ((1 : ℝ) : EReal) := by
  rw [val_main_v5_apply]
  exact one_word

/-- The edge weights, the input weights followed by the self-loop weights, are real when the input weights are. -/
theorem weights_real (x2 : (⟨S3200000, .f32⟩ : BufTy).Contents (Elt Ideal)) (h2 : AllReal (S := S3200000) x2) :
    AllReal (S := S3300000) (val_main_v6 (F := Ideal) x2) := by
  intro i
  obtain ⟨e, rfl⟩ : ∃ e : Fin 3300000, i = ix1 e := ⟨i 0, eq_ix1 i⟩
  have hread : (val_main_v6 (F := Ideal) x2 (ix1 e) : EReal)
      = if he : e.val < 3200000 then (x2 (ix1 ⟨e.val, he⟩) : EReal)
        else (val_main_v5 (F := Ideal) (ix1 ⟨e.val - 3200000, by have := e.isLt; omega⟩) : EReal) :=
    concat_vec_apply (α := EReal) x2 (val_main_v5 (F := Ideal)) concatenates_S3200000_S100000_S3300000_d0 e
  rw [hread]
  split
  · exact h2 _
  · rw [selfLoop_apply]
    exact ⟨EReal.coe_ne_top _, EReal.coe_ne_bot _⟩

/-! ## The degrees -/

/-- The degree of node `v`: the start value plus the sum of the weights of the edges whose target number is `v`. -/
theorem degree_apply (x1 : (⟨S2x3200000, .i32⟩ : BufTy).Contents (Elt Ideal))
    (x2 : (⟨S3200000, .f32⟩ : BufTy).Contents (Elt Ideal)) (v : Fin 100000) :
    (val_main_v13 (F := Ideal) x1 x2 (ix1 v) : EReal)
      = (val_main_v11 (F := Ideal) (ix1 v) : EReal)
        + ∑ e ∈ Finset.univ.filter (fun e : Fin 3300000 => (val_main_v12 (F := Ideal) x1 (ix2 e 0)).toInt = (v.val : Int)),
            (val_main_v6 (F := Ideal) x2 (ix1 e) : EReal) :=
  scatterAdd_vec_apply scatter_S100000_S3300000x1_S3300000_n_0_0_1_wf (val_main_v11 (F := Ideal))
    (val_main_v12 (F := Ideal) x1) (val_main_v6 (F := Ideal) x2) v

/-- The four zero-filled arrays and the one-filled array of this stretch of the program, read at an index. -/
theorem zeros11_apply (i : S100000.Idx) : (val_main_v11 (F := Ideal) i : EReal) = 0 := by
  rw [val_main_v11_apply]; exact Ideal.ofBits_zero_f32
theorem zeros14_apply (i : S100000.Idx) : (val_main_v14 (F := Ideal) i : EReal) = 0 := by
  rw [val_main_v14_apply]; exact Ideal.ofBits_zero_f32
theorem zeros17_apply (i : S100000.Idx) : (val_main_v17 (F := Ideal) i : EReal) = 0 := by
  rw [val_main_v17_apply]; exact Ideal.ofBits_zero_f32
theorem zerosElse_apply (i : S100000.Idx) : (val_main_call1_v1 (F := Ideal) i : EReal) = 0 := by
  rw [val_main_call1_v1_apply]; exact Ideal.ofBits_zero_f32

/-- The degrees are real when the input weights are. -/
theorem degree_real (x1 : (⟨S2x3200000, .i32⟩ : BufTy).Contents (Elt Ideal))
    (x2 : (⟨S3200000, .f32⟩ : BufTy).Contents (Elt Ideal)) (h2 : AllReal (S := S3200000) x2) :
    AllReal (S := S100000) (val_main_v13 (F := Ideal) x1 x2) := by
  intro i
  obtain ⟨v, rfl⟩ : ∃ v : Fin 100000, i = ix1 v := ⟨i 0, eq_ix1 i⟩
  rw [degree_apply, zeros11_apply, zero_add]
  exact sum_real _ _ fun e _ => weights_real x2 h2 (ix1 e)

/-! ## The scale -/

/-- The scalar step from a degree to a scale: with `c` the test "degree > 0", the scale is
    `select c (rsqrt (select c degree one)) 0`. For a real degree it is a real number, whatever `one` is. -/
theorem scale_of_real_degree (r : ℝ) (one : EReal) :
    (Scalar.select (FloatOps.cmpf (F := Ideal) (φ := .f32) .ogt (r : EReal) (0 : EReal))
        (FloatOps.hostUnary (F := Ideal) (φ := .f32) .rsqrt
          (Scalar.select (FloatOps.cmpf (F := Ideal) (φ := .f32) .ogt (r : EReal) (0 : EReal)) (r : EReal) one))
        (0 : EReal) : EReal) ≠ ⊤
    ∧ (Scalar.select (FloatOps.cmpf (F := Ideal) (φ := .f32) .ogt (r : EReal) (0 : EReal))
        (FloatOps.hostUnary (F := Ideal) (φ := .f32) .rsqrt
          (Scalar.select (FloatOps.cmpf (F := Ideal) (φ := .f32) .ogt (r : EReal) (0 : EReal)) (r : EReal) one))
        (0 : EReal) : EReal) ≠ ⊥ := by
  by_cases hpos : (0 : EReal) < (r : EReal)
  · have hc : FloatOps.cmpf (F := Ideal) (φ := .f32) .ogt (r : EReal) (0 : EReal) = 1#1 := by
      show BitVec.ofBool (decide ((0 : EReal) < (r : EReal))) = 1#1
      rw [decide_eq_true hpos]; rfl
    rw [hc]
    show Ideal.rsqrt (r : EReal) ≠ ⊤ ∧ Ideal.rsqrt (r : EReal) ≠ ⊥
    have hr : 0 < r := EReal.coe_pos.1 hpos
    rw [Ideal.rsqrt_coe, if_neg (not_lt.2 hr.le), if_neg hr.ne']
    exact ⟨EReal.coe_ne_top _, EReal.coe_ne_bot _⟩
  · have hc : FloatOps.cmpf (F := Ideal) (φ := .f32) .ogt (r : EReal) (0 : EReal) = 0#1 := by
      show BitVec.ofBool (decide ((0 : EReal) < (r : EReal))) = 0#1
      rw [decide_eq_false hpos]; rfl
    rw [hc]
    show (0 : EReal) ≠ ⊤ ∧ (0 : EReal) ≠ ⊥
    exact ⟨EReal.zero_ne_top, EReal.zero_ne_bot⟩

/-- The per-node scale is real when the input weights are. -/
theorem scale_real (x1 : (⟨S2x3200000, .i32⟩ : BufTy).Contents (Elt Ideal))
    (x2 : (⟨S3200000, .f32⟩ : BufTy).Contents (Elt Ideal)) (h2 : AllReal (S := S3200000) x2) :
    AllReal (S := S100000) (val_main_v20 (F := Ideal) x1 x2) := by
  intro i
  obtain ⟨hdt, hdb⟩ := degree_real x1 x2 h2 i
  have hd : ((val_main_v13 (F := Ideal) x1 x2 i : EReal).toReal : EReal) = val_main_v13 (F := Ideal) x1 x2 i :=
    EReal.coe_toReal hdt hdb
  have key := scale_of_real_degree (val_main_v13 (F := Ideal) x1 x2 i : EReal).toReal (val_main_call0_v1 (F := Ideal) i)
  rw [hd] at key
  rw [val_main_v20_apply, val_main_v18_apply, val_main_v19_apply, val_main_v16_apply, val_main_v15_apply,
    zeros17_apply, zeros14_apply, zerosElse_apply]
  exact key

end Cert.ReferenceIdeal.ScaleReal

end
-- ==== Proof.Bridge.lean ====
/-
  The idealized kernel's result is the idealized reference's result, on inputs that are real numbers.

  The kernel's run ends with the node-scaled arrangement of the graph convolution over the data its first dense
  transform is entered with; that data — source and target numbers, edge weights, per-node scale — is, array by array,
  what the reference computes from the same arguments; the reference's run ends with the edge-scaled arrangement over
  the same data. Under the precondition every float argument is real, hence so are the weights (the arguments and ones)
  and the scale (an inverse square root of a positive real, or zero), and on real data the two arrangements agree.
-/
import proofs.«168969_j29274497089560_2_alg».proof.Proof.KernelChain
import proofs.«168969_j29274497089560_2_alg».proof.Proof.KernelPrefix
import proofs.«168969_j29274497089560_2_alg».proof.Proof.KernelPrefixScale
import proofs.«168969_j29274497089560_2_alg».proof.Proof.TermsEq
import proofs.«168969_j29274497089560_2_alg».proof.Proof.RefRead
import proofs.«168969_j29274497089560_2_alg».proof.Proof.Finite
import proofs.«168969_j29274497089560_2_alg».proof.Proof.ScaleReal

set_option maxRecDepth 16384

noncomputable section

namespace Cert.Proof.Bridge

open Idealize.ShloMosaic Idealize.ShloMosaic.TcCoe Idealize.ShloMosaic.ValueIdx Idealize.ShloMosaic.RowRead Idealize.SL.Sem
open Cert.GCN Cert.KernelIdeal Cert.KernelIdeal.Gen Cert.KernelIdeal.Chain

variable (m : (ℓ : Loc nD τ sig) → Buf (Elt Ideal) ℓ) (ρ : Dev nD → PrngReg)

/-! ## The kernel's data is the reference's -/

/-- The source numbers. -/
theorem R5_eq (c : Dev nD) :
    R5 m ρ c = Cert.ReferenceIdeal.Read.val_main_v8 (F := Ideal) (m ((c.tc : Thread nD τ).loc main_arg1)) :=
  (Cert.KernelIdeal.Prefix.pre_v3 (W0 m ρ c)).trans (Cert.Proof.TermsEq.row_eq _)

/-- The target numbers. -/
theorem C5_eq (c : Dev nD) :
    C5 m ρ c = Cert.ReferenceIdeal.Read.val_main_v10 (F := Ideal) (m ((c.tc : Thread nD τ).loc main_arg1)) :=
  (Cert.KernelIdeal.Prefix.pre_v6 (W0 m ρ c)).trans (Cert.Proof.TermsEq.col_eq _)

/-- The per-node scale. -/
theorem D5_eq (c : Dev nD) :
    D5 m ρ c = fun u => Cert.ReferenceIdeal.Read.val_main_v20 (F := Ideal) (m ((c.tc : Thread nD τ).loc main_arg1))
      (m ((c.tc : Thread nD τ).loc main_arg2)) (ix1 u) := by
  funext u
  show (W5 m ρ c (Proc.devRef .tc main_v20) : S100000x1.Idx → EReal) (ix2 u (0 : Fin 1)) = _
  rw [show W5 m ρ c (Proc.devRef .tc main_v20) = _ from Cert.KernelIdeal.PrefixScale.pre_v20 (W0 m ρ c)]
  rw [shapeCast_a_a1_apply, Cert.Proof.TermsEq.col_eq, Cert.Proof.TermsEq.weight_eq, Cert.Proof.TermsEq.scale_eq]

/-- The edge weights. -/
theorem E5_eq (c : Dev nD) :
    E5 m ρ c = fun e => Cert.ReferenceIdeal.Read.val_main_v6 (F := Ideal) (m ((c.tc : Thread nD τ).loc main_arg2)) (ix1 e) := by
  funext e
  show (W5 m ρ c (Proc.devRef .tc main_v9) : S3300000x1.Idx → EReal) (ix2 e (0 : Fin 1)) = _
  rw [show W5 m ρ c (Proc.devRef .tc main_v9) = _ from Cert.KernelIdeal.Prefix.pre_v9 (W0 m ρ c)]
  rw [shapeCast_a_a1_apply, Cert.Proof.TermsEq.weight_eq]

/-- The float arguments reach the two dense transforms and the last stretch as launched. -/
theorem X5_eq (c : Dev nD) : X5 m ρ c = fun u k => (m ((c.tc : Thread nD τ).loc main_arg0) : S100000x128.Idx → EReal) (ix2 u k) := by
  funext u k
  show (W5 m ρ c (Proc.devRef .tc main_arg0) : S100000x128.Idx → EReal) (ix2 u k) = _
  rw [show W5 m ρ c (Proc.devRef .tc main_arg0) = _ from (Cert.KernelIdeal.Prefix.pre_args (W0 m ρ c)).1]
theorem W15_eq (c : Dev nD) : W15 m ρ c = fun k j => (m ((c.tc : Thread nD τ).loc main_arg3) : S128x64.Idx → EReal) (ix2 k j) := by
  funext k j
  show (W5 m ρ c (Proc.devRef .tc main_arg3) : S128x64.Idx → EReal) (ix2 k j) = _
  rw [show W5 m ρ c (Proc.devRef .tc main_arg3) = _ from (Cert.KernelIdeal.Prefix.pre_args (W0 m ρ c)).2.1]
theorem B15_eq (c : Dev nD) : B15 m ρ c = fun j => (m ((c.tc : Thread nD τ).loc main_arg4) : S64.Idx → EReal) (ix1 j) := by
  funext j
  show (W5 m ρ c (Proc.devRef .tc main_arg4) : S64.Idx → EReal) (ix1 j) = _
  rw [show W5 m ρ c (Proc.devRef .tc main_arg4) = _ from (Cert.KernelIdeal.Prefix.pre_args (W0 m ρ c)).2.2.1]
theorem W25_eq (c : Dev nD) : W25 m ρ c = fun j => (m ((c.tc : Thread nD τ).loc main_arg5) : S64x1.Idx → EReal) (ix2 j (0 : Fin 1)) := by
  funext j
  show (W5 m ρ c (Proc.devRef .tc main_arg5) : S64x1.Idx → EReal) (ix2 j (0 : Fin 1)) = _
  rw [show W5 m ρ c (Proc.devRef .tc main_arg5) = _ from (Cert.KernelIdeal.Prefix.pre_args (W0 m ρ c)).2.2.2.1]
theorem B25_eq (c : Dev nD) : B25 m ρ c = (m ((c.tc : Thread nD τ).loc main_arg6) : S1.Idx → EReal) (ix1 (0 : Fin 1)) := by
  show (W5 m ρ c (Proc.devRef .tc main_arg6) : S1.Idx → EReal) (ix1 (0 : Fin 1)) = _
  rw [show W5 m ρ c (Proc.devRef .tc main_arg6) = _ from (Cert.KernelIdeal.Prefix.pre_args (W0 m ρ c)).2.2.2.2]

/-! ## The two results agree -/

/-- Under the precondition the kernel's result array is the reference's result term of the same arguments. -/
theorem result_agree [hP : Cert.Pre_finite_inputs.Facts] (hpre : Cert.Pre_KernelIdeal m) (c : Dev nD) :
    (W9 (F := Ideal) m ρ c (Proc.devRef .tc main_v51) : S100000x1.Idx → EReal)
      = Cert.ReferenceIdeal.Read.val_main_v100 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  obtain ⟨h0, h2, h3, h4, h5, _⟩ := Cert.Proof.Finite.inputs_real m hpre c
  funext i
  obtain ⟨v, rfl⟩ : ∃ v : Fin 100000, i = ix2 v (0 : Fin 1) :=
    ⟨i 0, (eq_ix2 i).trans (congrArg (ix2 (i 0)) (Fin.ext (by
      have h1 := idx2_lt1 i
      show (i 1).val = 0
      omega)))⟩
  refine (result_eq m ρ c v).trans ?_
  rw [Cert.ReferenceIdeal.RefValue.ref_out, R5_eq, C5_eq, D5_eq, E5_eq, X5_eq, W15_eq, B15_eq, W25_eq, B25_eq]
  exact kOut_eq_rOut _ _ _ (fun v e he => nodeOf_of_mem_hitsOf _ v e he) _ _ _ _ _ _ _
    (fun u => Cert.ReferenceIdeal.ScaleReal.scale_real _ _ h2 (ix1 u))
    (fun e => Cert.ReferenceIdeal.ScaleReal.weights_real _ h2 (ix1 e))
    (fun u k => h0 (ix2 u k)) (fun k j => h3 (ix2 k j)) (fun j => h4 (ix1 j)) (fun j => h5 (ix2 j (0 : Fin 1))) v

end Cert.Proof.Bridge

end
-- ==== Proof.lean ====
/-
  A two-layer graph convolution (symmetric normalisation, rectifier between the layers) on 100000 nodes and 3300000
  edges (the given ones and one self-loop per node): the kernel against its reference, over the extended reals.

  Both programs build the same edge list, edge weights and per-node scale `D` (the inverse square root of the weighted
  in-degree where that is positive, zero elsewhere) by different host operations. The reference scales every message on
  its edge by `D(src) · w · D(dst)`, aggregates at the target nodes and adds the bias, twice. The kernel folds the source
  factor into two dense node transforms (pipelined over twenty blocks of 5000 nodes each: `(X·W1)·D`, and
  `(max(agg·D + b1, 0)·W2)·D`) and applies the target factor to the aggregated sums. The two are the same function
  because a finite sum of reals distributes over a real factor; on the extended reals this needs every term real, which
  the precondition (every float input finite) gives: the weights are inputs or ones, the degree a finite sum of them,
  the scale an inverse square root of a positive real or zero, the dense transforms finite sums of products.

  The three frames are the generated ones (the reference's is its generated run with the result dropped); nothing was
  rewritten by the idealisation, so that conjunct is trivial; the value claim pairs the kernel's run, with its result
  named, against the reference's generated run.
-/
import proofs.«168969_j29274497089560_2_alg».proof.Defs
import proofs.«168969_j29274497089560_2_alg».proof.Proof.Gen.Kernel
import proofs.«168969_j29274497089560_2_alg».proof.Proof.Gen.Kernel.Frame
import proofs.«168969_j29274497089560_2_alg».proof.Proof.Gen.KernelIdeal
import proofs.«168969_j29274497089560_2_alg».proof.Proof.Gen.KernelIdeal.Frame
import proofs.«168969_j29274497089560_2_alg».proof.Proof.Gen.ReferenceIdeal
import proofs.«168969_j29274497089560_2_alg».proof.Proof.Gen.Pre_finite_inputs
import proofs.«168969_j29274497089560_2_alg».proof.Proof.Gen.ReferenceIdeal.Run
import proofs.«168969_j29274497089560_2_alg».proof.Proof.Gen.ReferenceIdeal.Read
import proofs.«168969_j29274497089560_2_alg».proof.Proof.KernelRun
import proofs.«168969_j29274497089560_2_alg».proof.Proof.Bridge
import Idealize.ShloMosaic.Adequacy
import Idealize.ShloMosaic.Init

noncomputable section

namespace Cert.Proof

open Idealize.ShloMosaic Idealize.SL.Sem

namespace Claims

/-- The kernel as printed runs and leaves its arguments unchanged. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments, under the precondition, both programs run and end with the same result:
    the kernel's result array is the reference's result term of the same arguments. -/
theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v51),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, (hagree c).1, (hagree c).2.1, (hagree c).2.2.1, (hagree c).2.2.2.1,
    (hagree c).2.2.2.2.1, (hagree c).2.2.2.2.2.1, (hagree c).2.2.2.2.2.2]
  exact (Cert.Proof.Bridge.result_agree m ρ hpre c).symm

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
